-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x64 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S200x256 : Shape := ⟨2, ![200, 256]⟩
abbrev S200x10000 : Shape := ⟨2, ![200, 10000]⟩
abbrev S10000x64 : Shape := ⟨2, ![10000, 64]⟩
abbrev S200x64 : Shape := ⟨2, ![200, 64]⟩
abbrev S200 : Shape := ⟨1, ![200]⟩
abbrev S200x1 : Shape := ⟨2, ![200, 1]⟩

abbrev nBuf : Space → Nat
  | .hbm => 15
  | .vmem => 46
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x256, .f32⟩
  | .hbm, ⟨7, _⟩ => ⟨S1x64, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x64, .f32⟩
  | .hbm, ⟨12, _⟩ => ⟨S10000x64, .f32⟩
  | .hbm, ⟨13, _⟩ => ⟨S10000x64, .f32⟩
  | .hbm, ⟨14, _⟩ => ⟨S10000x64, .f32⟩
  | .local _ .vmem, ⟨0, _⟩ => ⟨S200x256, .f32⟩
  | .local _ .vmem, ⟨1, _⟩ => ⟨S200x256, .f32⟩
  | .local _ .vmem, ⟨2, _⟩ => ⟨S256x256, .f32⟩
  | .local _ .vmem, ⟨3, _⟩ => ⟨S200x256, .f32⟩
  | .local _ .vmem, ⟨4, _⟩ => ⟨S200x256, .f32⟩
  | .local _ .vmem, ⟨5, _⟩ => ⟨S200x10000, .f32⟩
  | .local _ .vmem, ⟨6, _⟩ => ⟨S200x10000, .f32⟩
  | .local _ .vmem, ⟨7, _⟩ => ⟨S10000x256, .f32⟩
  | .local _ .vmem, ⟨8, _⟩ => ⟨S200x256, .f32⟩
  | .local _ .vmem, ⟨9, _⟩ => ⟨S200x256, .f32⟩
  | .local _ .vmem, ⟨10, _⟩ => ⟨S200x10000, .f32⟩
  | .local _ .vmem, ⟨11, _⟩ => ⟨S200x10000, .f32⟩
  | .local _ .vmem, ⟨12, _⟩ => ⟨S10000x256, .f32⟩
  | .local _ .vmem, ⟨13, _⟩ => ⟨S200x256, .f32⟩
  | .local _ .vmem, ⟨14, _⟩ => ⟨S200x256, .f32⟩
  | .local _ .vmem, ⟨15, _⟩ => ⟨S200x10000, .f32⟩
  | .local _ .vmem, ⟨16, _⟩ => ⟨S200x10000, .f32⟩
  | .local _ .vmem, ⟨17, _⟩ => ⟨S10000x256, .f32⟩
  | .local _ .vmem, ⟨18, _⟩ => ⟨S200x256, .f32⟩
  | .local _ .vmem, ⟨19, _⟩ => ⟨S200x256, .f32⟩
  | .local _ .vmem, ⟨20, _⟩ => ⟨S200x256, .f32⟩
  | .local _ .vmem, ⟨21, _⟩ => ⟨S200x256, .f32⟩
  | .local _ .vmem, ⟨22, _⟩ => ⟨S1x256, .f32⟩
  | .local _ .vmem, ⟨23, _⟩ => ⟨S256x64, .f32⟩
  | .local _ .vmem, ⟨24, _⟩ => ⟨S200x64, .f32⟩
  | .local _ .vmem, ⟨25, _⟩ => ⟨S200x64, .f32⟩
  | .local _ .vmem, ⟨26, _⟩ => ⟨S200x10000, .f32⟩
  | .local _ .vmem, ⟨27, _⟩ => ⟨S200x10000, .f32⟩
  | .local _ .vmem, ⟨28, _⟩ => ⟨S10000x64, .f32⟩
  | .local _ .vmem, ⟨29, _⟩ => ⟨S200x64, .f32⟩
  | .local _ .vmem, ⟨30, _⟩ => ⟨S200x64, .f32⟩
  | .local _ .vmem, ⟨31, _⟩ => ⟨S200x10000, .f32⟩
  | .local _ .vmem, ⟨32, _⟩ => ⟨S200x10000, .f32⟩
  | .local _ .vmem, ⟨33, _⟩ => ⟨S10000x64, .f32⟩
  | .local _ .vmem, ⟨34, _⟩ => ⟨S200x64, .f32⟩
  | .local _ .vmem, ⟨35, _⟩ => ⟨S200x64, .f32⟩
  | .local _ .vmem, ⟨36, _⟩ => ⟨S200x10000, .f32⟩
  | .local _ .vmem, ⟨37, _⟩ => ⟨S200x10000, .f32⟩
  | .local _ .vmem, ⟨38, _⟩ => ⟨S10000x64, .f32⟩
  | .local _ .vmem, ⟨39, _⟩ => ⟨S200x64, .f32⟩
  | .local _ .vmem, ⟨40, _⟩ => ⟨S200x64, .f32⟩
  | .local _ .vmem, ⟨41, _⟩ => ⟨S200x64, .f32⟩
  | .local _ .vmem, ⟨42, _⟩ => ⟨S200x64, .f32⟩
  | .local _ .vmem, ⟨43, _⟩ => ⟨S1x64, .f32⟩
  | .local _ .vmem, ⟨44, _⟩ => ⟨S200x64, .f32⟩
  | .local _ .vmem, ⟨45, _⟩ => ⟨S200x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc6_stg3_0 : Ref sig .tc := ⟨.vmem, 41, rfl⟩
abbrev cc6_stg3_1 : Ref sig .tc := ⟨.vmem, 42, rfl⟩
abbrev cc6_stg4_0 : Ref sig .tc := ⟨.vmem, 43, rfl⟩
abbrev cc6_stg5_0 : Ref sig .tc := ⟨.vmem, 44, rfl⟩
abbrev cc6_stg5_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem5_0 : DmaSem sig := 23
abbrev cc3_sem6_0 : DmaSem sig := 24
abbrev cc3_sem6_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc6_sem3_0 : DmaSem sig := 41
abbrev cc6_sem3_1 : DmaSem sig := 42
abbrev cc6_sem4_0 : DmaSem sig := 43
abbrev cc6_sem5_0 : DmaSem sig := 44
abbrev cc6_sem5_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def k3_off1 (i : grid3.Coords) : Fin 2 → Nat :=
  let arg0 : BitVec 32 := BitVec.ofNat 32 (i 0).val
  let c200_i32 : BitVec 32 := 200#32
  let v4 : BitVec 32 := Scalar.muli arg0 c200_i32
  let v5 : Index := Scalar.indexCast v4
  let c0_3 : Index := 0#32
  ![v5.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S200x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S200x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S200x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S200x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def k6_off1 (i : grid6.Coords) : Fin 2 → Nat :=
  let arg0 : BitVec 32 := BitVec.ofNat 32 (i 0).val
  let c200_i32 : BitVec 32 := 200#32
  let v4 : BitVec 32 := Scalar.muli arg0 c200_i32
  let v5 : Index := Scalar.indexCast v4
  let c0_3 : Index := 0#32
  ![v5.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S200x10000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S200x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S200x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S200x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  shapeCasts_S256_S1x256 : S256.ShapeCasts S1x256
  shapeCasts_S64_S1x64 : S64.ShapeCasts S1x64
  inb_S200x256_S200x256_0_0 : ∀ a, (![0, 0] : Fin 2 → Nat) a + S200x256.size a ≤ S200x256.size a
  h_S200x256 : 0 < S200x256.numel
  inb_S256x256_S256x256_0_0 : ∀ a, (![0, 0] : Fin 2 → Nat) a + S256x256.size a ≤ S256x256.size a
  h_S256x256 : 0 < S256x256.numel
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  shapeCasts_S200x256_S200x256 : S200x256.ShapeCasts S200x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S256x64_S256x64_0_0 : ∀ a, (![0, 0] : Fin 2 → Nat) a + S256x64.size a ≤ S256x64.size a
  h_S256x64 : 0 < S256x64.numel
  inb_S200x64_S200x64_0_0 : ∀ a, (![0, 0] : Fin 2 → Nat) a + S200x64.size a ≤ S200x64.size a
  h_S200x64 : 0 < S200x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S200x64_S200x64 : S200x64.ShapeCasts S200x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  reduces_S200x64_S200 : S200x64.Reduces [1] S200
  shapeCasts_S200_S200x1 : S200.ShapeCasts S200x1
  broadcasts_S200x1_S200x64 : S200x1.Broadcasts S200x64
  dot_S200x256_S256x256_S200x256_1_0_0_1_n_n_wf : DotDims.WF S200x256 S256x256 S200x256 [1] [0] [0] [1] [] []
  dot_S200x10000_S10000x256_S200x256_1_0_0_1_n_n_wf : DotDims.WF S200x10000 S10000x256 S200x256 [1] [0] [0] [1] [] []
  dot_S200x256_S256x64_S200x64_1_0_0_1_n_n_wf : DotDims.WF S200x256 S256x64 S200x64 [1] [0] [0] [1] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x256.size a ≤ S10000x256.size a
  hwx0_0 : ∀ i : grid0.Coords, EltTy.bits .f32 = 32 ∨ (Rect.block (s := S10000x256) S200x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x256.size a ≤ S10000x256.size a
  hwx0_2 : ∀ i : grid0.Coords, EltTy.bits .f32 = 32 ∨ (Rect.block (s := S10000x256) S200x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x256.size a ≤ S10000x256.size a
  hwx1_2 : ∀ i : grid1.Coords, EltTy.bits .f32 = 32 ∨ (Rect.block (s := S10000x256) S200x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x256.size a ≤ S10000x256.size a
  hwx2_2 : ∀ i : grid2.Coords, EltTy.bits .f32 = 32 ∨ (Rect.block (s := S10000x256) S200x256.size (cc2_transform_2 i) (hinb2_2 i)).WholeWords (EltTy.packing .f32)
  hrank3 : 0 < grid3.rank
  k3_off1_inb : ∀ i : grid3.Coords, ∀ a, (k3_off1 i) a + S200x256.size a ≤ S10000x256.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .f32 = 32 ∨ (Rect.block (s := S10000x256) S10000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x256.size a ≤ S10000x256.size a
  hwx3_2 : ∀ i : grid3.Coords, EltTy.bits .f32 = 32 ∨ (Rect.block (s := S10000x256) S200x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x256.size a ≤ S10000x256.size a
  hwx3_3 : ∀ i : grid3.Coords, EltTy.bits .f32 = 32 ∨ (Rect.block (s := S10000x256) S200x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x64.size a ≤ S256x64.size a
  hwx3_5 : ∀ i : grid3.Coords, EltTy.bits .f32 = 32 ∨ (Rect.block (s := S256x64) S256x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S200x64.size a ≤ S10000x64.size a
  hwx3_6 : ∀ i : grid3.Coords, EltTy.bits .f32 = 32 ∨ (Rect.block (s := S10000x64) S200x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x10000.size a ≤ S10000x10000.size a
  hwx4_0 : ∀ i : grid4.Coords, EltTy.bits .f32 = 32 ∨ (Rect.block (s := S10000x10000) S200x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S10000x64.size a
  hwx4_1 : ∀ i : grid4.Coords, EltTy.bits .f32 = 32 ∨ (Rect.block (s := S10000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S200x64.size a ≤ S10000x64.size a
  hwx4_2 : ∀ i : grid4.Coords, EltTy.bits .f32 = 32 ∨ (Rect.block (s := S10000x64) S200x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x10000.size a ≤ S10000x10000.size a
  hwx5_0 : ∀ i : grid5.Coords, EltTy.bits .f32 = 32 ∨ (Rect.block (s := S10000x10000) S200x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .f32 = 32 ∨ (Rect.block (s := S10000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S200x64.size a ≤ S10000x64.size a
  hwx5_2 : ∀ i : grid5.Coords, EltTy.bits .f32 = 32 ∨ (Rect.block (s := S10000x64) S200x64.size (cc5_transform_2 i) (hinb5_2 i)).WholeWords (EltTy.packing .f32)
  hrank6 : 0 < grid6.rank
  k6_off1_inb : ∀ i : grid6.Coords, ∀ a, (k6_off1 i) a + S200x64.size a ≤ S10000x64.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S200x10000.size a ≤ S10000x10000.size a
  hwx6_0 : ∀ i : grid6.Coords, EltTy.bits .f32 = 32 ∨ (Rect.block (s := S10000x10000) S200x10000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S10000x64.size a
  hwx6_1 : ∀ i : grid6.Coords, EltTy.bits .f32 = 32 ∨ (Rect.block (s := S10000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S200x64.size a ≤ S10000x64.size a
  hwx6_2 : ∀ i : grid6.Coords, EltTy.bits .f32 = 32 ∨ (Rect.block (s := S10000x64) S200x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S200x64.size a ≤ S10000x64.size a
  hwx6_3 : ∀ i : grid6.Coords, EltTy.bits .f32 = 32 ∨ (Rect.block (s := S10000x64) S200x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S200x64.size a ≤ S10000x64.size a
  hwx6_5 : ∀ i : grid6.Coords, EltTy.bits .f32 = 32 ∨ (Rect.block (s := S10000x64) S200x64.size (cc6_transform_5 i) (hinb6_5 i)).WholeWords (EltTy.packing .f32)

variable [Facts₀]

def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x64_S200x64_1_0_0_1_n_n : DotDims S200x256 S256x64 S200x64 where
  lhsContracting := [1]
  rhsContracting := [0]
  lhsNonContracting := [0]
  rhsNonContracting := [1]
  lhsBatch := []
  rhsBatch := []
  wf := dot_S200x256_S256x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S200x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S200x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S200x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S200x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S200x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v0) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg4) S256x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v5) S200x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg1) S200x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S10000x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v6) S200x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg1) S200x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v7) S200x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_arg1) S200x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S10000x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v5) S200x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v6) S200x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v1) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v8) S200x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S10000x256, .f32⟩
  | .hbm, ⟨7, _⟩ => ⟨S10000x256, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | .hbm, ⟨16, _⟩ => ⟨S_, .f32⟩
  | .hbm, ⟨17, _⟩ => ⟨S10000x256, .f32⟩
  | .hbm, ⟨18, _⟩ => ⟨S10000x256, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x64, .f32⟩
  | .hbm, ⟨43, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Spec.lean ====
/-
  The mathematics both programs compute, over the extended reals, with matrices as functions of two finite indices.

  A two-layer polynomial graph filter. With A the n × n propagation matrix, one layer maps a feature matrix s to
  s + A s + A² s + A³ s + b, the four terms added in that order and the bias row b added last to every row. The first
  layer is applied to X W₀ and followed by max(·, 0); the second is applied to (hidden) W₁; and each row z of the result
  is normalised by the logarithm of the sum of exponentials, taken stably around the row's maximum M:
  z_j − (M + log Σ_k exp (z_k − M)) on one side, (z_j − M) − log Σ_k exp (z_k − M) on the other. The two agree
  whenever the row is made of real numbers.
-/
import Idealize.ShloMosaic.PureOps.Ideal
import Idealize.ShloMosaic.Lib.ValueIdx

open scoped BigOperators

noncomputable section

namespace Cert.GraphFilter

open Idealize.ShloMosaic Idealize.ShloMosaic.ValueIdx

/-- An a × b matrix of extended reals. -/
abbrev Mat (a b : ℕ) := Fin a → Fin b → EReal

/-- A rank-2 array read as a matrix. -/
def mat {a b : ℕ} (x : (⟨2, ![a, b]⟩ : Shape).Idx → EReal) : Mat a b := fun r k => x (ix2 r k)

/-- A matrix laid out as a rank-2 array. -/
def arr {a b : ℕ} (G : Mat a b) : (⟨2, ![a, b]⟩ : Shape).Idx → EReal :=
  fun i => G ⟨(i 0).val, idx2_lt0 i⟩ ⟨(i 1).val, idx2_lt1 i⟩

theorem arr_ix2 {a b : ℕ} (G : Mat a b) (r : Fin a) (j : Fin b) : arr G (ix2 r j) = G r j := rfl

theorem mat_arr {a b : ℕ} (G : Mat a b) : mat (arr G) = G := rfl

/-- A rank-1 array read as a vector. -/
def vec {a : ℕ} (x : (⟨1, ![a]⟩ : Shape).Idx → EReal) : Fin a → EReal := fun k => x (ix1 k)

/-- The matrix product: entry (r, j) is Σ_q X(r, q) · Y(q, j). -/
def mm {a k b : ℕ} (X : Mat a k) (Y : Mat k b) : Mat a b := fun r j => ∑ q : Fin k, X r q * Y q j

/-- One filter layer: s + A s + A² s + A³ s + b, added in this order. -/
def filt {n f : ℕ} (A : Mat n n) (s : Mat n f) (b : Fin f → EReal) : Mat n f :=
  fun r j => s r j + mm A s r j + mm A (mm A s) r j + mm A (mm A (mm A s)) r j + b j

/-- The hidden features: the first layer on X W, clipped below at zero. -/
def hidden {n d f : ℕ} (X : Mat n d) (A : Mat n n) (W : Mat d f) (b : Fin f → EReal) : Mat n f :=
  fun r j => max (filt A (mm X W) b r j) 0

/-- The class scores: the second layer on (hidden) W₁. -/
def logits {n d f g : ℕ} (X : Mat n d) (A : Mat n n) (W0 : Mat d f) (b0 : Fin f → EReal) (W1 : Mat f g)
    (b1 : Fin g → EReal) : Mat n g :=
  filt A (mm (hidden X A W0 b0) W1) b1

/-- A row's maximum, as the fold of max from −∞ over its entries. -/
def rowMax {f : ℕ} (z : Fin f → EReal) : EReal := (Finset.univ : Finset (Fin f)).fold max ⊥ z

/-- Σ_k exp (z_k − M) for M the row's maximum. -/
def expSum {f : ℕ} (z : Fin f → EReal) : EReal := ∑ k : Fin f, Ideal.exp (z k - rowMax z)

/-- The normalised row in the form z_j − (M + log Σ exp (z − M)). -/
def normA {n f : ℕ} (Z : Mat n f) : Mat n f := fun r j => Z r j - (rowMax (Z r) + Ideal.log (expSum (Z r)))

/-- The normalised row in the form (z_j − M) − log Σ exp (z − M). -/
def normB {n f : ℕ} (Z : Mat n f) : Mat n f := fun r j => (Z r j - rowMax (Z r)) - Ideal.log (expSum (Z r))

end Cert.GraphFilter

end
-- ==== Proof.RefSide.lean ====
/-
  The reference program, read at one entry of its result, is the specification.

  The reference computes X W₀, applies the propagation matrix A to it three times in turn, adds the four terms in order
  and then the bias row, clips at zero, and repeats the same layer on (hidden) W₁; the result's rows are then normalised:
  the row's maximum M (a fold of max from −∞, joined once more with −∞) is subtracted, the exponentials are summed from
  zero, and the logarithm of the sum is subtracted. Each stage is read here at an index (r, j) written by its two
  coordinates, bottom-up: a product stage is an entry of a matrix product, the sums of four terms and a bias row are one
  filter layer, and the normalised entry is (z_j − M) − log Σ_k exp (z_k − M).
-/
import proofs.«109910_g72645076845145_cont_9to1_m_391_4_alg».proof.Proof.RefRead
import proofs.«109910_g72645076845145_cont_9to1_m_391_4_alg».proof.Proof.Spec
import Idealize.ShloMosaic.Lib.ValueIdx
import Idealize.ShloMosaic.PureOps.Ideal.Laws
import Idealize.ShloMosaic.PureOps.Reduce

open scoped BigOperators

noncomputable section

namespace Cert.GraphFilter.Ref

open Idealize.ShloMosaic Idealize.ShloMosaic.ValueIdx Cert.ReferenceIdeal Cert.GraphFilter

/-! ## Indices by coordinates, and the two general readings -/

/-- A rank-2 index with coordinates `a` and `b` is `ix2 a b`. -/
theorem pair_eq {n0 n1 : ℕ} (i : (⟨2, ![n0, n1]⟩ : Shape).Idx) (a : Fin n0) (b : Fin n1) (h0 : i 0 = a) (h1 : i 1 = b) :
    i = ix2 a b := by
  subst h0 h1; exact eq_ix2 i

/-- A rank-1 index with coordinate `a` is `ix1 a`. -/
theorem one_eq {n : ℕ} (i : (⟨1, ![n]⟩ : Shape).Idx) (a : Fin n) (h : i 0 = a) : i = ix1 a := by
  subst h; exact eq_ix1 i

/-- A sum over `q` of a left array read along row `r` times a right array read down column `j` is entry (r, j) of the
    matrix product. -/
theorem sum_mul_eq_mm {a k b : ℕ} {sl sr : Shape} (L : sl.Idx → EReal) (R : sr.Idx → EReal) (li : Fin k → sl.Idx)
    (ri : Fin k → sr.Idx) (X : Mat a k) (Y : Mat k b) (r : Fin a) (j : Fin b) (hl : ∀ q, L (li q) = X r q)
    (hr : ∀ q, R (ri q) = Y q j) : ∑ q : Fin k, L (li q) * R (ri q) = mm X Y r j :=
  Finset.sum_congr rfl fun q _ => congrArg₂ (· * ·) (hl q) (hr q)

/-- The source index a reduction along axis 1 inserts over row `r` at coordinate `k` is (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The f32 word of −∞ is the least extended real. -/
theorem negInf_f32 : Ideal.ofBits .f32 0xFF800000#32 = ⊥ := by simp [Ideal.ofBits, Ideal.ieee]

/-- A reduce with a maximum body along axis 1 from an initial value that is −∞ reads, at row `r`, the fold of max from
    ⊥ over the row's entries. -/
theorem hostRowMax_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (hinit : init (Shape.Idx.first hu) = ⊥) (r : Fin a) :
    Host.reduce FloatOps.maximumf x init h' hu (ix1 r)
      = (Finset.univ : Finset (Fin b)).fold max ⊥ (fun k => x (ix2 r k)) := by
  rw [Host.reduce_eq_fold_single FloatOps.maximumf x _ h' h hu, hinit]
  have hf : (x ∘ h.lift (ix1 r)) = fun k : Fin b => x (ix2 r k) := funext fun k => congrArg x (lift_row h r k)
  exact congrArg (fun f => Finset.fold max (⊥ : EReal) f (Finset.univ : Finset (Fin b))) hf

variable (x0 : (⟨S10000x256, .f32⟩ : BufTy).Contents (Elt Ideal)) (x1 : (⟨S10000x10000, .f32⟩ : BufTy).Contents (Elt Ideal))
    (x2 : (⟨S256x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))

local notation "AA" => mat x1
local notation "XW" => mm (mat x0) (mat x2)
local notation "HID" => hidden (mat x0) (mat x1) (mat x2) (vec x3)
local notation "HW" => mm (hidden (mat x0) (mat x1) (mat x2) (vec x3)) (mat x4)
local notation "LG" => logits (mat x0) (mat x1) (mat x2) (vec x3) (mat x4) (vec x5)

/-! ## The first layer -/

/-- X W₀. -/
theorem v0_eq (r : Fin 10000) (j : Fin 256) : ReadP.val_main_v0 (F := Ideal) x0 x2 (ix2 r j) = XW r j :=
  (ReadP.val_main_v0_apply x0 x2 (ix2 r j)).trans <|
    sum_mul_eq_mm x0 x2 (ReadP.lidx_main_v0 (ix2 r j)) (ReadP.ridx_main_v0 (ix2 r j)) (mat x0) (mat x2) r j
      (fun q => congrArg x0 (pair_eq _ r q rfl rfl)) (fun q => congrArg x2 (pair_eq _ q j rfl rfl))

/-- A (X W₀). -/
theorem v1_eq (r : Fin 10000) (j : Fin 256) : ReadP.val_main_v1 (F := Ideal) x0 x1 x2 (ix2 r j) = mm AA XW r j :=
  (ReadP.val_main_v1_apply x0 x1 x2 (ix2 r j)).trans <|
    sum_mul_eq_mm x1 (ReadP.val_main_v0 (F := Ideal) x0 x2) (ReadP.lidx_main_v1 (ix2 r j)) (ReadP.ridx_main_v1 (ix2 r j))
      AA XW r j (fun q => congrArg x1 (pair_eq _ r q rfl rfl))
      (fun q => (congrArg (ReadP.val_main_v0 (F := Ideal) x0 x2) (pair_eq _ q j rfl rfl)).trans (v0_eq x0 x2 q j))

/-- A² (X W₀). -/
theorem v3_eq (r : Fin 10000) (j : Fin 256) : ReadP.val_main_v3 (F := Ideal) x0 x1 x2 (ix2 r j) = mm AA (mm AA XW) r j :=
  (ReadP.val_main_v3_apply x0 x1 x2 (ix2 r j)).trans <|
    sum_mul_eq_mm x1 (ReadP.val_main_v1 (F := Ideal) x0 x1 x2) (ReadP.lidx_main_v3 (ix2 r j)) (ReadP.ridx_main_v3 (ix2 r j))
      AA (mm AA XW) r j (fun q => congrArg x1 (pair_eq _ r q rfl rfl))
      (fun q => (congrArg (ReadP.val_main_v1 (F := Ideal) x0 x1 x2) (pair_eq _ q j rfl rfl)).trans (v1_eq x0 x1 x2 q j))

/-- A³ (X W₀). -/
theorem v5_eq (r : Fin 10000) (j : Fin 256) :
    ReadP.val_main_v5 (F := Ideal) x0 x1 x2 (ix2 r j) = mm AA (mm AA (mm AA XW)) r j :=
  (ReadP.val_main_v5_apply x0 x1 x2 (ix2 r j)).trans <|
    sum_mul_eq_mm x1 (ReadP.val_main_v3 (F := Ideal) x0 x1 x2) (ReadP.lidx_main_v5 (ix2 r j)) (ReadP.ridx_main_v5 (ix2 r j))
      AA (mm AA (mm AA XW)) r j (fun q => congrArg x1 (pair_eq _ r q rfl rfl))
      (fun q => (congrArg (ReadP.val_main_v3 (F := Ideal) x0 x1 x2) (pair_eq _ q j rfl rfl)).trans (v3_eq x0 x1 x2 q j))

/-- The first bias, laid out as a row and broadcast down the rows, reads the bias at the column. -/
theorem v8_eq (r : Fin 10000) (j : Fin 256) : ReadP.val_main_v8 (F := Ideal) x3 (ix2 r j) = vec x3 j :=
  (ReadP.val_main_v8_apply x3 (ix2 r j)).trans <|
    (ReadP.val_main_v7_apply x3 _).trans <| congrArg x3 (one_eq _ j rfl)

/-- The four terms and the bias, added in the program's order, are one filter layer on X W₀. -/
theorem v9_eq (r : Fin 10000) (j : Fin 256) :
    ReadP.val_main_v9 (F := Ideal) x0 x1 x2 x3 (ix2 r j) = filt AA XW (vec x3) r j := by
  rw [ReadP.val_main_v9_apply, ReadP.val_main_v6_apply, ReadP.val_main_v4_apply, ReadP.val_main_v2_apply, v0_eq, v1_eq,
    v3_eq, v5_eq, v8_eq]
  rfl

/-- The zero splat the clip compares with. -/
theorem zero_eq (i : S10000x256.Idx) : ReadP.val_main_call0_v0 (F := Ideal) i = 0 :=
  (ReadP.val_main_call0_v0_apply (F := Ideal) i).trans <|
    (ReadP.val_main_call0_cst_apply (F := Ideal) _).trans Ideal.ofBits_zero_f32

/-- The hidden features. -/
theorem v10_eq (r : Fin 10000) (j : Fin 256) : ReadP.val_main_v10 (F := Ideal) x0 x1 x2 x3 (ix2 r j) = HID r j := by
  rw [ReadP.val_main_v10_apply, v9_eq, zero_eq]
  rfl

/-! ## The second layer -/

/-- (hidden) W₁. -/
theorem v11_eq (r : Fin 10000) (j : Fin 64) : ReadP.val_main_v11 (F := Ideal) x0 x1 x2 x3 x4 (ix2 r j) = HW r j :=
  (ReadP.val_main_v11_apply x0 x1 x2 x3 x4 (ix2 r j)).trans <|
    sum_mul_eq_mm (ReadP.val_main_v10 (F := Ideal) x0 x1 x2 x3) x4 (ReadP.lidx_main_v11 (ix2 r j))
      (ReadP.ridx_main_v11 (ix2 r j)) HID (mat x4) r j
      (fun q => (congrArg (ReadP.val_main_v10 (F := Ideal) x0 x1 x2 x3) (pair_eq _ r q rfl rfl)).trans
        (v10_eq x0 x1 x2 x3 r q))
      (fun q => congrArg x4 (pair_eq _ q j rfl rfl))

/-- A ((hidden) W₁). -/
theorem v12_eq (r : Fin 10000) (j : Fin 64) : ReadP.val_main_v12 (F := Ideal) x0 x1 x2 x3 x4 (ix2 r j) = mm AA HW r j :=
  (ReadP.val_main_v12_apply x0 x1 x2 x3 x4 (ix2 r j)).trans <|
    sum_mul_eq_mm x1 (ReadP.val_main_v11 (F := Ideal) x0 x1 x2 x3 x4) (ReadP.lidx_main_v12 (ix2 r j))
      (ReadP.ridx_main_v12 (ix2 r j)) AA HW r j (fun q => congrArg x1 (pair_eq _ r q rfl rfl))
      (fun q => (congrArg (ReadP.val_main_v11 (F := Ideal) x0 x1 x2 x3 x4) (pair_eq _ q j rfl rfl)).trans
        (v11_eq x0 x1 x2 x3 x4 q j))

/-- A² ((hidden) W₁). -/
theorem v14_eq (r : Fin 10000) (j : Fin 64) :
    ReadP.val_main_v14 (F := Ideal) x0 x1 x2 x3 x4 (ix2 r j) = mm AA (mm AA HW) r j :=
  (ReadP.val_main_v14_apply x0 x1 x2 x3 x4 (ix2 r j)).trans <|
    sum_mul_eq_mm x1 (ReadP.val_main_v12 (F := Ideal) x0 x1 x2 x3 x4) (ReadP.lidx_main_v14 (ix2 r j))
      (ReadP.ridx_main_v14 (ix2 r j)) AA (mm AA HW) r j (fun q => congrArg x1 (pair_eq _ r q rfl rfl))
      (fun q => (congrArg (ReadP.val_main_v12 (F := Ideal) x0 x1 x2 x3 x4) (pair_eq _ q j rfl rfl)).trans
        (v12_eq x0 x1 x2 x3 x4 q j))

/-- A³ ((hidden) W₁). -/
theorem v16_eq (r : Fin 10000) (j : Fin 64) :
    ReadP.val_main_v16 (F := Ideal) x0 x1 x2 x3 x4 (ix2 r j) = mm AA (mm AA (mm AA HW)) r j :=
  (ReadP.val_main_v16_apply x0 x1 x2 x3 x4 (ix2 r j)).trans <|
    sum_mul_eq_mm x1 (ReadP.val_main_v14 (F := Ideal) x0 x1 x2 x3 x4) (ReadP.lidx_main_v16 (ix2 r j))
      (ReadP.ridx_main_v16 (ix2 r j)) AA (mm AA (mm AA HW)) r j (fun q => congrArg x1 (pair_eq _ r q rfl rfl))
      (fun q => (congrArg (ReadP.val_main_v14 (F := Ideal) x0 x1 x2 x3 x4) (pair_eq _ q j rfl rfl)).trans
        (v14_eq x0 x1 x2 x3 x4 q j))

/-- The second bias, laid out as a row and broadcast down the rows, reads the bias at the column. -/
theorem v19_eq (r : Fin 10000) (j : Fin 64) : ReadP.val_main_v19 (F := Ideal) x5 (ix2 r j) = vec x5 j :=
  (ReadP.val_main_v19_apply x5 (ix2 r j)).trans <|
    (ReadP.val_main_v18_apply x5 _).trans <| congrArg x5 (one_eq _ j rfl)

/-- The class scores. -/
theorem v20_eq (r : Fin 10000) (j : Fin 64) : ReadP.val_main_v20 (F := Ideal) x0 x1 x2 x3 x4 x5 (ix2 r j) = LG r j := by
  rw [ReadP.val_main_v20_apply, ReadP.val_main_v17_apply, ReadP.val_main_v15_apply, ReadP.val_main_v13_apply, v11_eq,
    v12_eq, v14_eq, v16_eq, v19_eq]
  rfl

/-! ## The normalisation of a row -/

/-- The reduce with a maximum body from −∞ reads the row's maximum. -/
theorem c1v0_eq (r : Fin 10000) : ReadP.val_main_call1_v0 (F := Ideal) x0 x1 x2 x3 x4 x5 (ix1 r) = rowMax (LG r) := by
  unfold ReadP.val_main_call1_v0
  refine (hostRowMax_apply (ReadP.val_main_v20 (F := Ideal) x0 x1 x2 x3 x4 x5) (ReadP.val_main_call1_cst (F := Ideal)) _
    (by decide) _ ((ReadP.val_main_call1_cst_apply (F := Ideal) _).trans negInf_f32) r).trans ?_
  exact congrArg (fun f => Finset.fold max (⊥ : EReal) f (Finset.univ : Finset (Fin 64)))
    (funext fun k => v20_eq x0 x1 x2 x3 x4 x5 r k)

/-- Joined once more with −∞, it is still the row's maximum. -/
theorem c1v2_eq (r : Fin 10000) : ReadP.val_main_call1_v2 (F := Ideal) x0 x1 x2 x3 x4 x5 (ix1 r) = rowMax (LG r) := by
  rw [ReadP.val_main_call1_v2_apply, c1v0_eq, ReadP.val_main_call1_v1_apply, ReadP.val_main_call1_cst_0_apply,
    Ideal.maximumf_def, Ideal.ofBits_def, negInf_f32]
  exact max_bot_left _

/-- The maximum as a column … -/
theorem c1v3_eq (r : Fin 10000) (u : Fin 1) :
    ReadP.val_main_call1_v3 (F := Ideal) x0 x1 x2 x3 x4 x5 (ix2 r u) = rowMax (LG r) :=
  (ReadP.val_main_call1_v3_apply x0 x1 x2 x3 x4 x5 (ix2 r u)).trans <|
    (congrArg (ReadP.val_main_call1_v2 (F := Ideal) x0 x1 x2 x3 x4 x5) (one_eq _ r rfl)).trans (c1v2_eq x0 x1 x2 x3 x4 x5 r)

/-- … and across the row. -/
theorem c1v4_eq (r : Fin 10000) (j : Fin 64) :
    ReadP.val_main_call1_v4 (F := Ideal) x0 x1 x2 x3 x4 x5 (ix2 r j) = rowMax (LG r) :=
  (ReadP.val_main_call1_v4_apply x0 x1 x2 x3 x4 x5 (ix2 r j)).trans <|
    (congrArg (ReadP.val_main_call1_v3 (F := Ideal) x0 x1 x2 x3 x4 x5) (pair_eq _ r ⟨0, Nat.one_pos⟩ rfl rfl)).trans
      (c1v3_eq x0 x1 x2 x3 x4 x5 r _)

/-- The entry less the row's maximum. -/
theorem c1v5_eq (r : Fin 10000) (j : Fin 64) :
    ReadP.val_main_call1_v5 (F := Ideal) x0 x1 x2 x3 x4 x5 (ix2 r j) = LG r j - rowMax (LG r) := by
  rw [ReadP.val_main_call1_v5_apply, Ideal.subf_def, v20_eq, c1v4_eq]

/-- Its exponential. -/
theorem c1v6_eq (r : Fin 10000) (j : Fin 64) :
    ReadP.val_main_call1_v6 (F := Ideal) x0 x1 x2 x3 x4 x5 (ix2 r j) = Ideal.exp (LG r j - rowMax (LG r)) := by
  rw [ReadP.val_main_call1_v6_apply, Ideal.hostUnary_exp_def, c1v5_eq]

/-- The row's sum of exponentials, from zero. -/
theorem c1v7_eq (r : Fin 10000) : ReadP.val_main_call1_v7 (F := Ideal) x0 x1 x2 x3 x4 x5 (ix1 r) = expSum (LG r) := by
  rw [ReadP.val_main_call1_v7_apply, ReadP.val_main_call1_cst_1_apply, Ideal.ofBits_def, Ideal.ofBits_zero_f32, zero_add]
  exact Finset.sum_congr rfl fun k _ =>
    (congrArg (ReadP.val_main_call1_v6 (F := Ideal) x0 x1 x2 x3 x4 x5) (pair_eq _ r k rfl rfl)).trans
      (c1v6_eq x0 x1 x2 x3 x4 x5 r k)

/-- The sum as a column. -/
theorem c1v8_eq (r : Fin 10000) (u : Fin 1) :
    ReadP.val_main_call1_v8 (F := Ideal) x0 x1 x2 x3 x4 x5 (ix2 r u) = expSum (LG r) :=
  (ReadP.val_main_call1_v8_apply x0 x1 x2 x3 x4 x5 (ix2 r u)).trans <|
    (congrArg (ReadP.val_main_call1_v7 (F := Ideal) x0 x1 x2 x3 x4 x5) (one_eq _ r rfl)).trans (c1v7_eq x0 x1 x2 x3 x4 x5 r)

/-- Its logarithm. -/
theorem c1v9_eq (r : Fin 10000) (u : Fin 1) :
    ReadP.val_main_call1_v9 (F := Ideal) x0 x1 x2 x3 x4 x5 (ix2 r u) = Ideal.log (expSum (LG r)) := by
  rw [ReadP.val_main_call1_v9_apply, Ideal.hostUnary_log_def, c1v8_eq]

/-- The logarithm across the row. -/
theorem c1v10_eq (r : Fin 10000) (j : Fin 64) :
    ReadP.val_main_call1_v10 (F := Ideal) x0 x1 x2 x3 x4 x5 (ix2 r j) = Ideal.log (expSum (LG r)) :=
  (ReadP.val_main_call1_v10_apply x0 x1 x2 x3 x4 x5 (ix2 r j)).trans <|
    (congrArg (ReadP.val_main_call1_v9 (F := Ideal) x0 x1 x2 x3 x4 x5) (pair_eq _ r ⟨0, Nat.one_pos⟩ rfl rfl)).trans
      (c1v9_eq x0 x1 x2 x3 x4 x5 r _)

/-! ## The result -/

/-- THE REFERENCE'S RESULT at (r, j) is the specification's normalised score, in the form (z_j − M) − log Σ exp (z − M). -/
theorem ref_eq (r : Fin 10000) (j : Fin 64) :
    Cert.ReferenceIdeal.ReadP.val_main_v21 (F := Ideal) x0 x1 x2 x3 x4 x5 (ix2 r j)
      = normB (logits (mat x0) (mat x1) (mat x2) (vec x3) (mat x4) (vec x5)) r j := by
  rw [ReadP.val_main_v21_apply, Ideal.subf_def, c1v5_eq, c1v10_eq]
  rfl

end Cert.GraphFilter.Ref

end
-- ==== Proof.RefFinal.lean ====
/-
  The reference program's run, with its result stated as the specification.

  Every weakly fair execution of the reference terminates with its result buffer holding, at every entry (r, j), the
  specification's normalised class score of the six argument arrays, and with the arguments unchanged. The run read back
  gives the result as one composed term of the arguments; that term is the last stage of the program read one operation
  at a time; and that stage, read at an index written by its two coordinates, is the specification.
-/
import proofs.«109910_g72645076845145_cont_9to1_m_391_4_alg».proof.Proof.RefSide

noncomputable section

namespace Cert.GraphFilter.Ref

open Idealize.ShloMosaic Idealize.ShloMosaic.ValueIdx Idealize.SL.Sem Cert.GraphFilter

/-- The result's composed term of the arguments is the specification's matrix, laid out as an array. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v21 (F := Ideal) m c
      = arr (normB (logits (mat (m ((c.tc : Thread Cert.ReferenceIdeal.nD Cert.ReferenceIdeal.τ).loc Cert.ReferenceIdeal.main_arg0))) (mat (m ((c.tc : Thread Cert.ReferenceIdeal.nD Cert.ReferenceIdeal.τ).loc Cert.ReferenceIdeal.main_arg1)))
          (mat (m ((c.tc : Thread Cert.ReferenceIdeal.nD Cert.ReferenceIdeal.τ).loc Cert.ReferenceIdeal.main_arg2))) (vec (m ((c.tc : Thread Cert.ReferenceIdeal.nD Cert.ReferenceIdeal.τ).loc Cert.ReferenceIdeal.main_arg3)))
          (mat (m ((c.tc : Thread Cert.ReferenceIdeal.nD Cert.ReferenceIdeal.τ).loc Cert.ReferenceIdeal.main_arg4))) (vec (m ((c.tc : Thread Cert.ReferenceIdeal.nD Cert.ReferenceIdeal.τ).loc Cert.ReferenceIdeal.main_arg5))))) :=
  (Cert.ReferenceIdeal.ReadP.val_main_v21_eq (F := Ideal) m c).trans <| funext fun i => by
    obtain ⟨a, b, rfl⟩ : ∃ (a : Fin 10000) (b : Fin 64), i = ix2 a b := ⟨i 0, i 1, eq_ix2 i⟩
    exact (ref_eq _ _ _ _ _ _ a b).trans (arr_ix2 _ a b).symm

/-- THE REFERENCE'S RUN: it terminates with the result buffer at the specification and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v21)
        = arr (normB (logits (mat (m ((c.tc : Thread Cert.ReferenceIdeal.nD Cert.ReferenceIdeal.τ).loc Cert.ReferenceIdeal.main_arg0))) (mat (m ((c.tc : Thread Cert.ReferenceIdeal.nD Cert.ReferenceIdeal.τ).loc Cert.ReferenceIdeal.main_arg1)))
          (mat (m ((c.tc : Thread Cert.ReferenceIdeal.nD Cert.ReferenceIdeal.τ).loc Cert.ReferenceIdeal.main_arg2))) (vec (m ((c.tc : Thread Cert.ReferenceIdeal.nD Cert.ReferenceIdeal.τ).loc Cert.ReferenceIdeal.main_arg3)))
          (mat (m ((c.tc : Thread Cert.ReferenceIdeal.nD Cert.ReferenceIdeal.τ).loc Cert.ReferenceIdeal.main_arg4))) (vec (m ((c.tc : Thread Cert.ReferenceIdeal.nD Cert.ReferenceIdeal.τ).loc Cert.ReferenceIdeal.main_arg5)))))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono (fun _ h c => ⟨(h c).1.trans (res_eq m c), (h c).2⟩)
    (Cert.ReferenceIdeal.ValueP.run (F := Ideal) m ρ)

end Cert.GraphFilter.Ref

end
-- ==== Proof.SpecLaws.lean ====
/-
  Two facts about the shared specification of the two-layer graph filter.

  First, the two ways of writing the stable logarithm of a sum of exponentials agree on a matrix of real numbers:
  a non-empty row of reals has a real maximum M, every exp (z_k − M) is a positive real, so their sum S is a
  positive real and log S is real; and z − (M + log S) = (z − M) − log S is an identity of real numbers.

  Second, the class scores of real inputs are real: a finite sum of products of reals is real, a sum of reals is
  real, and the maximum of a real and zero is real.
-/
import proofs.«109910_g72645076845145_cont_9to1_m_391_4_alg».proof.Proof.Spec

open scoped BigOperators

noncomputable section

namespace Cert.GraphFilter

open Idealize.ShloMosaic

/-- A finite sum of real numbers, taken in the extended reals, is the real sum. -/
theorem coe_sum_real {ι : Type*} (s : Finset ι) (g : ι → ℝ) :
    (∑ k ∈ s, ((g k : ℝ) : EReal)) = ((∑ k ∈ s, g k : ℝ) : EReal) := by
  classical
  induction s using Finset.induction_on with
  | empty => simp
  | insert a t ha ih => rw [Finset.sum_insert ha, Finset.sum_insert ha, ih, EReal.coe_add]

/-- The maximum of two reals, taken in the extended reals, is the real maximum. -/
theorem coe_max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a non-empty finite family of reals, folded from −∞, is real. -/
theorem fold_max_real {ι : Type*} [DecidableEq ι] (z : ι → EReal) (hz : ∀ k, ∃ x : ℝ, z k = (x : EReal))
    (s : Finset ι) (hs : s.Nonempty) : ∃ M : ℝ, s.fold max ⊥ z = (M : EReal) := by
  induction s using Finset.induction_on with
  | empty => exact absurd hs (by simp)
  | insert a t ha ih =>
    rw [Finset.fold_insert ha]
    obtain ⟨x, hx⟩ := hz a
    rcases t.eq_empty_or_nonempty with rfl | ht
    · exact ⟨x, by simp [hx]⟩
    · obtain ⟨M, hM⟩ := ih ht
      exact ⟨max x M, by rw [hx, hM, coe_max_real]⟩

/-- A non-empty row of reals has a real maximum. -/
theorem rowMax_real {f : ℕ} (z : Fin f → EReal) (hz : ∀ k, ∃ x : ℝ, z k = (x : EReal)) (j : Fin f) :
    ∃ M : ℝ, rowMax z = (M : EReal) :=
  fold_max_real z hz Finset.univ ⟨j, Finset.mem_univ j⟩

/-- For a non-empty row of reals the sum of exponentials around the maximum is a positive real. -/
theorem expSum_real {f : ℕ} (z : Fin f → EReal) (hz : ∀ k, ∃ x : ℝ, z k = (x : EReal)) (j : Fin f) :
    ∃ S : ℝ, 0 < S ∧ expSum z = (S : EReal) := by
  obtain ⟨M, hM⟩ := rowMax_real z hz j
  choose x hx using hz
  refine ⟨∑ k : Fin f, Real.exp (x k - M), ?_, ?_⟩
  · exact Finset.sum_pos (fun k _ => Real.exp_pos _) ⟨j, Finset.mem_univ j⟩
  · rw [expSum, hM, ← coe_sum_real]
    refine Finset.sum_congr rfl fun k _ => ?_
    rw [hx k, ← EReal.coe_sub, Ideal.exp_coe]

/-- The two forms of the normalised row agree on a matrix of reals. -/
theorem normA_eq_normB {n f : ℕ} (Z : Mat n f) (hZ : ∀ r j, ∃ x : ℝ, Z r j = (x : EReal)) : normA Z = normB Z := by
  funext r j
  obtain ⟨M, hM⟩ := rowMax_real (Z r) (hZ r) j
  obtain ⟨S, hS, hSe⟩ := expSum_real (Z r) (hZ r) j
  obtain ⟨x, hx⟩ := hZ r j
  have hL : Ideal.log (expSum (Z r)) = ((Real.log S : ℝ) : EReal) := by
    rw [hSe, Ideal.log_coe, if_neg (not_le.mpr hS)]
  rw [normA, normB, hL, hM, hx, ← EReal.coe_add, ← EReal.coe_sub, ← EReal.coe_sub, ← EReal.coe_sub]
  congr 1
  ring

/-- The sum of two reals is real. -/
theorem add_real {a b : EReal} (ha : ∃ x : ℝ, a = (x : EReal)) (hb : ∃ x : ℝ, b = (x : EReal)) :
    ∃ x : ℝ, a + b = (x : EReal) := by
  obtain ⟨x, rfl⟩ := ha
  obtain ⟨y, rfl⟩ := hb
  exact ⟨x + y, (EReal.coe_add x y).symm⟩

/-- The product of two real matrices is real. -/
theorem mm_real {a k b : ℕ} (X : Mat a k) (Y : Mat k b) (hX : ∀ r q, ∃ x : ℝ, X r q = (x : EReal))
    (hY : ∀ q j, ∃ x : ℝ, Y q j = (x : EReal)) : ∀ r j, ∃ x : ℝ, mm X Y r j = (x : EReal) := by
  intro r j
  choose x hx using hX
  choose y hy using hY
  refine ⟨∑ q : Fin k, x r q * y q j, ?_⟩
  rw [mm, ← coe_sum_real]
  refine Finset.sum_congr rfl fun q _ => ?_
  rw [hx, hy, EReal.coe_mul]

/-- A filter layer of real data is real. -/
theorem filt_real {n f : ℕ} (A : Mat n n) (s : Mat n f) (b : Fin f → EReal)
    (hA : ∀ r k, ∃ x : ℝ, A r k = (x : EReal)) (hs : ∀ r j, ∃ x : ℝ, s r j = (x : EReal))
    (hb : ∀ j, ∃ x : ℝ, b j = (x : EReal)) : ∀ r j, ∃ x : ℝ, filt A s b r j = (x : EReal) := by
  intro r j
  have h1 := mm_real A s hA hs
  have h2 := mm_real A (mm A s) hA h1
  have h3 := mm_real A (mm A (mm A s)) hA h2
  exact add_real (add_real (add_real (add_real (hs r j) (h1 r j)) (h2 r j)) (h3 r j)) (hb j)

/-- The hidden features of real data are real. -/
theorem hidden_real {n d f : ℕ} (X : Mat n d) (A : Mat n n) (W : Mat d f) (b : Fin f → EReal)
    (hX : ∀ r k, ∃ x : ℝ, X r k = (x : EReal)) (hA : ∀ r k, ∃ x : ℝ, A r k = (x : EReal))
    (hW : ∀ r k, ∃ x : ℝ, W r k = (x : EReal)) (hb : ∀ k, ∃ x : ℝ, b k = (x : EReal)) :
    ∀ r j, ∃ x : ℝ, hidden X A W b r j = (x : EReal) := by
  intro r j
  obtain ⟨x, hx⟩ := filt_real A (mm X W) b hA (mm_real X W hX hW) hb r j
  exact ⟨max x 0, by rw [hidden, hx, ← EReal.coe_zero, coe_max_real]⟩

/-- The class scores of real data are real. -/
theorem logits_real {n d f g : ℕ} (X : Mat n d) (A : Mat n n) (W0 : Mat d f) (b0 : Fin f → EReal) (W1 : Mat f g)
    (b1 : Fin g → EReal)
    (hX : ∀ r k, ∃ x : ℝ, X r k = (x : EReal)) (hA : ∀ r k, ∃ x : ℝ, A r k = (x : EReal))
    (hW0 : ∀ r k, ∃ x : ℝ, W0 r k = (x : EReal)) (hb0 : ∀ k, ∃ x : ℝ, b0 k = (x : EReal))
    (hW1 : ∀ r k, ∃ x : ℝ, W1 r k = (x : EReal)) (hb1 : ∀ k, ∃ x : ℝ, b1 k = (x : EReal)) :
    ∀ r j, ∃ x : ℝ, logits X A W0 b0 W1 b1 r j = (x : EReal) :=
  filt_real A (mm (hidden X A W0 b0) W1) b1 hA (mm_real _ W1 (hidden_real X A W0 b0 hX hA hW0 hb0) hW1) hb1

end Cert.GraphFilter

end
-- ==== Proof.Finite.lean ====
/-
  The certificate's precondition makes every input entry a real number.

  The printed predicate is the conjunction, over the six argument arrays, of "every entry x has |x| < +∞", each a
  reduction by "and" of the elementwise comparison against the pattern of +∞. A conjunction of bits that is 1 has
  every bit 1; a reduction by "and" over all axes that is 1 had 1 at every index; and an extended real x with
  max x (−x) < +∞ is neither −∞ nor +∞, so it is a real number.
-/
import proofs.«109910_g72645076845145_cont_9to1_m_391_4_alg».proof.Defs
import proofs.«109910_g72645076845145_cont_9to1_m_391_4_alg».proof.Proof.Gen.Pre_finite_inputs
import Idealize.ShloMosaic.Lib.ReduceAll
import Idealize.ShloMosaic.Lib.ValueIdx

noncomputable section

namespace Cert.GraphFilter.Fin0

open Idealize.ShloMosaic Idealize.ShloMosaic.ValueIdx Idealize.SL.Sem
open Cert.Pre_finite_inputs

/-- The f32 pattern of +∞ denotes +∞. -/
theorem inf_bits : Ideal.ofBits .f32 0x7F800000#32 = (⊤ : EReal) := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change BitVec.ofBool (decide (max x (-x) < Ideal.ofBits .f32 0x7F800000#32)) = 1#1 at h
  rw [inf_bits] at h
  induction x using EReal.rec with
  | bot => simp at h
  | coe r => exact ⟨r, rfl⟩
  | top => simp at h

/-- The scalar shape has one index. -/
instance : Subsingleton (⟨0, ![]⟩ : Shape).Idx := ⟨fun a b => funext fun d => d.elim0⟩

/-- One conjunct of the precondition: an array all of whose entries have absolute value below +∞ is an array of
    reals. -/
theorem real_of_all {s : Shape} {axes : List (Fin s.rank)} (a : s.Idx → EReal)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf (F := Ideal) (φ := .f32) a)
          (broadcastInDim s ![] hb (constant (F := Ideal) ⟨0, ![]⟩ .f32 0x7F800000#32)))
        (constantI ⟨0, ![]⟩ 1 1#1) hr hu ix0 = 1#1) :
    ∀ i, ∃ x : ℝ, a i = (x : EReal) := fun i =>
  real_of_abs_lt (a i) (Host.reduce_andi_all _ _ hr hu ix0 e i)

/-- The precondition, for any six arrays: all six are arrays of reals. -/
theorem real_of_fn [Facts] (a0 : S10000x256.Idx → EReal) (a1 : S10000x10000.Idx → EReal)
    (a2 : S256x256.Idx → EReal) (a3 : S256.Idx → EReal) (a4 : S256x64.Idx → EReal) (a5 : S64.Idx → EReal)
    (h : fn (F := Ideal) a0 a1 a2 a3 a4 a5 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal)) := by
  have e := congrFun h ix0
  dsimp only [fn, fn_part1] at e
  simp only [andi, IntOp.andi_eq_one] at e
  obtain ⟨⟨⟨⟨⟨e0, e1⟩, e2⟩, e3⟩, e4⟩, e5⟩ := e
  exact ⟨real_of_all a0 _ _ _ e0, real_of_all a1 _ _ _ e1, real_of_all a2 _ _ _ e2, real_of_all a3 _ _ _ e3,
    real_of_all a4 _ _ _ e4, real_of_all a5 _ _ _ e5⟩

/-- The precondition of the idealized kernel, for a launch memory: on every device the six argument arrays are arrays
    of reals. -/
theorem real_of_pre [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
      ∧ (∀ i, ∃ x : ℝ, m ((c.tc : Thread Cert.KernelIdeal.nD Cert.KernelIdeal.τ).loc Cert.KernelIdeal.main_arg1) i = (x : EReal))
      ∧ (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg3) i = (x : EReal))
      ∧ (∀ i, ∃ x : ℝ, m ((c.tc : Thread Cert.KernelIdeal.nD Cert.KernelIdeal.τ).loc Cert.KernelIdeal.main_arg4) i = (x : EReal))
      ∧ (∀ i, ∃ x : ℝ, m ((c.tc : Thread Cert.KernelIdeal.nD Cert.KernelIdeal.τ).loc Cert.KernelIdeal.main_arg5) i = (x : EReal)) :=
  real_of_fn _ _ _ _ _ _ (h c)

end Cert.GraphFilter.Fin0

end
-- ==== Proof.KRun.lean ====
/-
  The idealized kernel's run with its result array named.

  @main is seven grid sweeps in a row, each entered from the buffer contents the one before it left. Every weakly fair
  execution from any launch memory terminates without a fault; the six argument arrays end as launched; and the result
  array ends holding what the last sweep's write-backs leave in it, the value the fold of buffer contents through the
  seven sweeps has at that buffer.
-/
import proofs.«109910_g72645076845145_cont_9to1_m_391_4_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_named : θ_run defs (onTc (τ := τ) (main (F := F))) ⟨m, fun _ => 0, ρ⟩ (fun r => ∀ c : Dev nD,
      r.2.mem ((c.tc : Thread nD τ).loc main_v8) = W8 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v8 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.KLin0.lean ====
/-
  Sweep 0 of the idealized kernel: the input features times the first weight matrix.

  The grid has 50 points. Point t loads rows 200 t … 200 t + 199 of the 10000 × 256 feature matrix and the whole
  256 × 256 weight matrix, multiplies them into a zero accumulator and writes the 200 × 256 product back as rows
  200 t … 200 t + 199 of the result. The 50 row slabs tile the result, so it ends as the full matrix product, entry
  (r, j) being Σ_k X(r, k) · W(k, j).
-/
import proofs.«109910_g72645076845145_cont_9to1_m_391_4_alg».proof.Proof.Gen.KernelIdeal.Frame
import proofs.«109910_g72645076845145_cont_9to1_m_391_4_alg».proof.Proof.Spec
import proofs.«109910_g72645076845145_cont_9to1_m_391_4_alg».proof.Proof.LibMatmul
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen Cert.GraphFilter
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- What a point stores, entry by entry: the product of its two loaded blocks. -/
theorem out0_2_apply (x0 : Vec Ideal S200x256 .f32) (x1 : Vec Ideal S256x256 .f32) (p : Fin 200) (q : Fin 256) :
    out0_2 x0 x1 (ix2 p q) = ∑ k : Fin 256, x0 (ix2 p k) * x1 (ix2 k q) := by
  unfold out0_2
  rw [View.canon_unit_zero hz0]
  simp only [View.ld_unit_zero (S := S200x256) hz0, View.ld_unit_zero (S := S256x256) hz0]
  unfold k0_pay1
  exact Cert.LibMatmul.plain_matmul_zero_apply (some .fp32) x0 x1 p q

/-- The same at any index of the block. -/
theorem out0_2_at (x0 : Vec Ideal S200x256 .f32) (x1 : Vec Ideal S256x256 .f32) (y : S200x256.Idx) :
    out0_2 x0 x1 y = ∑ k : Fin 256, x0 (ix2 (n0 := 200) (y 0) k) * x1 (ix2 k (n1 := 256) (y 1)) := by
  conv_lhs => rw [eq_ix2 y]
  exact out0_2_apply x0 x1 (y 0) (y 1)

/-- Where each window's block sits at point t: the feature slab and the result slab at block row t, the weights whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature slab at point t, entry (p, k): the features at (200 t + p, k). -/
theorem iblk0_0_apply (c : Dev nD) (t : Fin cfg0.N) (x : S200x256.Idx) (i : S10000x256.Idx)
    (h0 : (i 0).val = 200 * t.val + (x 0).val) (h1 : (i 1).val = (x 1).val) :
    (iblk0 V c 0 t : Vec Ideal S200x256 .f32) x = (V c main_arg0 : S10000x256.Idx → EReal) i := by
  obtain ⟨e0, e1, -, -, -, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 200 + 1 * (x 0).val = (i 0).val; rw [e0, h0]; omega
  | ⟨1, _⟩ => show win0_0.index t (1 : Fin 2) * 256 + 1 * (x 1).val = (i 1).val; rw [e1, h1]; omega

/-- The weight block at any point is the whole weight matrix. -/
theorem iblk0_1_apply (c : Dev nD) (t : Fin cfg0.N) (x : S256x256.Idx) :
    (iblk0 V c 1 t : Vec Ideal S256x256 .f32) x = (V c main_arg2 : S256x256.Idx → EReal) x := by
  obtain ⟨-, -, e2, e3, -, -⟩ := idx0 t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * (x 0).val = (x 0).val; rw [e2]; omega
  | ⟨1, _⟩ => show win0_1.index t (1 : Fin 2) * 256 + 1 * (x 1).val = (x 1).val; rw [e3]; omega

/-- What point t writes back is block t of the full product. -/
theorem flushed0 (c : Dev nD) (t : Fin cfg0.N) :
    (dat0 V c).flushed 2 t = ((cfg0.win 2).blk t).view.read (Elt Ideal)
      (arr (mm (mat (V c main_arg0 : S10000x256.Idx → EReal)) (mat (V c main_arg2 : S256x256.Idx → EReal)))) := by
  show (cfg0.win 2).cut (grid0.coords t) ((dat0 V c).after 2 t) = _
  rw [after0_2]
  obtain ⟨-, -, -, -, e4, e5⟩ := idx0 t
  funext y
  refine (out0_2_at (iblk0 V c 0 t) (iblk0 V c 1 t) y).trans ?_
  rw [View.read_apply]
  unfold arr mm
  refine Finset.sum_congr rfl fun k _ => ?_
  unfold mat
  refine congrArg₂ (· * ·) (iblk0_0_apply V c t _ _ ?_ rfl) ((iblk0_1_apply V c t _).trans (congrArg (V c main_arg2) (funext fun a => Fin.ext ?_)))
  · show win0_2.index t (0 : Fin 2) * 200 + 1 * (y 0).val = 200 * t.val + (y 0).val
    rw [e4]; omega
  · match a with
    | ⟨0, _⟩ => rfl
    | ⟨1, _⟩ => show (y 1).val = win0_2.index t (1 : Fin 2) * 256 + 1 * (y 1).val; rw [e5]; omega

/-- An index of the result is in point t's block iff each coordinate is in the block's range. -/
theorem mem_blk0 (t : Fin cfg0.N) (i : S10000x256.Idx) :
    i ∈ ((cfg0.win 2).blk t).view.set ↔ ∀ a : Fin 2, win0_2.index t a * S200x256.size a ≤ (i a).val ∧ (i a).val < win0_2.index t a * S200x256.size a + S200x256.size a := by
  show i ∈ ((View.whole main_v2).slice (win0_2.rect t)).set ↔ _
  rw [View.set_slice_whole, Rect.mem_set_unit]
  exact Iff.rfl

/-- Every row of the result lies in the slab of the point numbered row / 200. -/
theorem cover0 (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 50 := N_0
  refine ⟨⟨(i 0).val / 200, by rw [hN]; omega⟩, flush0_2 _, ?_⟩
  obtain ⟨-, -, -, -, e4, e5⟩ := idx0 ⟨(i 0).val / 200, by rw [hN]; omega⟩
  rw [mem_blk0]
  intro a
  match a with
  | ⟨0, _⟩ => show win0_2.index _ (0 : Fin 2) * 200 ≤ (i 0).val ∧ (i 0).val < win0_2.index _ (0 : Fin 2) * 200 + 200; rw [e4]; show (i 0).val / 200 * 200 ≤ (i 0).val ∧ (i 0).val < (i 0).val / 200 * 200 + 200; omega
  | ⟨1, _⟩ => show win0_2.index _ (1 : Fin 2) * 256 ≤ (i 1).val ∧ (i 1).val < win0_2.index _ (1 : Fin 2) * 256 + 256; rw [e5]; omega

/-- The result array after the sweep: the full product of the two arrays the sweep found. -/
theorem final0 (c : Dev nD) : (dat0 V c).arrAt 2 cfg0.N
    = arr (mm (mat (V c main_arg0 : S10000x256.Idx → EReal)) (mat (V c main_arg2 : S256x256.Idx → EReal))) :=
  (dat0 V c).arrAt_eq_of_cover 2 _ (fun t _ => flushed0 V c t) (cover0)

end Cert.KernelIdeal.Hand

end
-- ==== Proof.KHop1.lean ====
/-
  Sweep 1 of the idealized kernel: one product by the propagation matrix.

  The grid has 50 points. Point t loads rows 200 t … 200 t + 199 of the 10000 × 10000 matrix and the whole
  10000 × 256 feature matrix, multiplies them into a zero accumulator and writes the 200 × 256 product back as rows
  200 t … 200 t + 199 of the result. The 50 row slabs tile the result, so it ends as the full matrix product, entry
  (r, j) being Σ_k A(r, k) · S(k, j).
-/
import proofs.«109910_g72645076845145_cont_9to1_m_391_4_alg».proof.Proof.Gen.KernelIdeal.Frame
import proofs.«109910_g72645076845145_cont_9to1_m_391_4_alg».proof.Proof.Spec
import proofs.«109910_g72645076845145_cont_9to1_m_391_4_alg».proof.Proof.LibMatmul
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen Cert.GraphFilter
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- What a point stores, entry by entry: the product of its two loaded blocks. -/
theorem out1_2_apply (x0 : Vec Ideal S200x10000 .f32) (x1 : Vec Ideal S10000x256 .f32) (p : Fin 200) (q : Fin 256) :
    out1_2 x0 x1 (ix2 p q) = ∑ k : Fin 10000, x0 (ix2 p k) * x1 (ix2 k q) := by
  unfold out1_2
  rw [View.canon_unit_zero hz1]
  simp only [View.ld_unit_zero (S := S200x10000) hz1, View.ld_unit_zero (S := S10000x256) hz1]
  unfold k1_pay1
  rw [shapeCast_self]
  exact Cert.LibMatmul.plain_matmul_zero_apply (some .fp32) x0 x1 p q

/-- The same at any index of the block. -/
theorem out1_2_at (x0 : Vec Ideal S200x10000 .f32) (x1 : Vec Ideal S10000x256 .f32) (y : S200x256.Idx) :
    out1_2 x0 x1 y = ∑ k : Fin 10000, x0 (ix2 (n0 := 200) (y 0) k) * x1 (ix2 k (n1 := 256) (y 1)) := by
  conv_lhs => rw [eq_ix2 y]
  exact out1_2_apply x0 x1 (y 0) (y 1)

/-- Where each window's block sits at point t: the matrix slab and the result slab at block row t, the features whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The matrix slab at point t, entry (p, k): the matrix at (200 t + p, k). -/
theorem iblk1_0_apply (c : Dev nD) (t : Fin cfg1.N) (x : S200x10000.Idx) (i : S10000x10000.Idx)
    (h0 : (i 0).val = 200 * t.val + (x 0).val) (h1 : (i 1).val = (x 1).val) :
    (iblk1 V c 0 t : Vec Ideal S200x10000 .f32) x = (V c main_arg1 : S10000x10000.Idx → EReal) i := by
  obtain ⟨e0, e1, -, -, -, -⟩ := idx1 t
  unfold iblk1
  rw [View.read_apply]
  show V c main_arg1 _ = V c main_arg1 _
  refine congrArg (V c main_arg1) (funext fun a => Fin.ext ?_)
  match a with
  | ⟨0, _⟩ => show win1_0.index t (0 : Fin 2) * 200 + 1 * (x 0).val = (i 0).val; rw [e0, h0]; omega
  | ⟨1, _⟩ => show win1_0.index t (1 : Fin 2) * 10000 + 1 * (x 1).val = (i 1).val; rw [e1, h1]; omega

/-- The feature block at any point is the whole feature matrix. -/
theorem iblk1_1_apply (c : Dev nD) (t : Fin cfg1.N) (x : S10000x256.Idx) :
    (iblk1 V c 1 t : Vec Ideal S10000x256 .f32) x = (V c main_v2 : S10000x256.Idx → EReal) x := by
  obtain ⟨-, -, e2, e3, -, -⟩ := idx1 t
  unfold iblk1
  rw [View.read_apply]
  show V c main_v2 _ = V c main_v2 _
  refine congrArg (V c main_v2) (funext fun a => Fin.ext ?_)
  match a with
  | ⟨0, _⟩ => show win1_1.index t (0 : Fin 2) * 10000 + 1 * (x 0).val = (x 0).val; rw [e2]; omega
  | ⟨1, _⟩ => show win1_1.index t (1 : Fin 2) * 256 + 1 * (x 1).val = (x 1).val; rw [e3]; omega

/-- What point t writes back is block t of the full product. -/
theorem flushed1 (c : Dev nD) (t : Fin cfg1.N) :
    (dat1 V c).flushed 2 t = ((cfg1.win 2).blk t).view.read (Elt Ideal)
      (arr (mm (mat (V c main_arg1 : S10000x10000.Idx → EReal)) (mat (V c main_v2 : S10000x256.Idx → EReal)))) := by
  show (cfg1.win 2).cut (grid1.coords t) ((dat1 V c).after 2 t) = _
  rw [after1_2]
  obtain ⟨-, -, -, -, e4, e5⟩ := idx1 t
  funext y
  refine (out1_2_at (iblk1 V c 0 t) (iblk1 V c 1 t) y).trans ?_
  rw [View.read_apply]
  unfold arr mm
  refine Finset.sum_congr rfl fun k _ => ?_
  unfold mat
  refine congrArg₂ (· * ·) (iblk1_0_apply V c t _ _ ?_ rfl) ((iblk1_1_apply V c t _).trans (congrArg (V c main_v2) (funext fun a => Fin.ext ?_)))
  · show win1_2.index t (0 : Fin 2) * 200 + 1 * (y 0).val = 200 * t.val + (y 0).val
    rw [e4]; omega
  · match a with
    | ⟨0, _⟩ => rfl
    | ⟨1, _⟩ => show (y 1).val = win1_2.index t (1 : Fin 2) * 256 + 1 * (y 1).val; rw [e5]; omega

/-- An index of the result is in point t's block iff each coordinate is in the block's range. -/
theorem mem_blk1 (t : Fin cfg1.N) (i : S10000x256.Idx) :
    i ∈ ((cfg1.win 2).blk t).view.set ↔ ∀ a : Fin 2, win1_2.index t a * S200x256.size a ≤ (i a).val ∧ (i a).val < win1_2.index t a * S200x256.size a + S200x256.size a := by
  show i ∈ ((View.whole main_v3).slice (win1_2.rect t)).set ↔ _
  rw [View.set_slice_whole, Rect.mem_set_unit]
  exact Iff.rfl

/-- Every row of the result lies in the slab of the point numbered row / 200. -/
theorem cover1 (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  have hN : cfg1.N = 50 := N_1
  refine ⟨⟨(i 0).val / 200, by rw [hN]; omega⟩, flush1_2 _, ?_⟩
  obtain ⟨-, -, -, -, e4, e5⟩ := idx1 ⟨(i 0).val / 200, by rw [hN]; omega⟩
  rw [mem_blk1]
  intro a
  match a with
  | ⟨0, _⟩ => show win1_2.index _ (0 : Fin 2) * 200 ≤ (i 0).val ∧ (i 0).val < win1_2.index _ (0 : Fin 2) * 200 + 200; rw [e4]; show (i 0).val / 200 * 200 ≤ (i 0).val ∧ (i 0).val < (i 0).val / 200 * 200 + 200; omega
  | ⟨1, _⟩ => show win1_2.index _ (1 : Fin 2) * 256 ≤ (i 1).val ∧ (i 1).val < win1_2.index _ (1 : Fin 2) * 256 + 256; rw [e5]; omega

/-- The result array after the sweep: the full product of the two arrays the sweep found. -/
theorem final1 (c : Dev nD) : (dat1 V c).arrAt 2 cfg1.N
    = arr (mm (mat (V c main_arg1 : S10000x10000.Idx → EReal)) (mat (V c main_v2 : S10000x256.Idx → EReal))) :=
  (dat1 V c).arrAt_eq_of_cover 2 _ (fun t _ => flushed1 V c t) (cover1)

end Cert.KernelIdeal.Hand

end
-- ==== Proof.KHop2.lean ====
/-
  Sweep 2 of the idealized kernel: one product by the propagation matrix.

  The grid has 50 points. Point t loads rows 200 t … 200 t + 199 of the 10000 × 10000 matrix and the whole
  10000 × 256 feature matrix, multiplies them into a zero accumulator and writes the 200 × 256 product back as rows
  200 t … 200 t + 199 of the result. The 50 row slabs tile the result, so it ends as the full matrix product, entry
  (r, j) being Σ_k A(r, k) · S(k, j).
-/
import proofs.«109910_g72645076845145_cont_9to1_m_391_4_alg».proof.Proof.Gen.KernelIdeal.Frame
import proofs.«109910_g72645076845145_cont_9to1_m_391_4_alg».proof.Proof.Spec
import proofs.«109910_g72645076845145_cont_9to1_m_391_4_alg».proof.Proof.LibMatmul
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen Cert.GraphFilter
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- What a point stores, entry by entry: the product of its two loaded blocks. -/
theorem out2_2_apply (x0 : Vec Ideal S200x10000 .f32) (x1 : Vec Ideal S10000x256 .f32) (p : Fin 200) (q : Fin 256) :
    out2_2 x0 x1 (ix2 p q) = ∑ k : Fin 10000, x0 (ix2 p k) * x1 (ix2 k q) := by
  unfold out2_2
  rw [View.canon_unit_zero hz2]
  simp only [View.ld_unit_zero (S := S200x10000) hz2, View.ld_unit_zero (S := S10000x256) hz2]
  unfold k2_pay1
  rw [shapeCast_self]
  exact Cert.LibMatmul.plain_matmul_zero_apply (some .fp32) x0 x1 p q

/-- The same at any index of the block. -/
theorem out2_2_at (x0 : Vec Ideal S200x10000 .f32) (x1 : Vec Ideal S10000x256 .f32) (y : S200x256.Idx) :
    out2_2 x0 x1 y = ∑ k : Fin 10000, x0 (ix2 (n0 := 200) (y 0) k) * x1 (ix2 k (n1 := 256) (y 1)) := by
  conv_lhs => rw [eq_ix2 y]
  exact out2_2_apply x0 x1 (y 0) (y 1)

/-- Where each window's block sits at point t: the matrix slab and the result slab at block row t, the features whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The matrix slab at point t, entry (p, k): the matrix at (200 t + p, k). -/
theorem iblk2_0_apply (c : Dev nD) (t : Fin cfg2.N) (x : S200x10000.Idx) (i : S10000x10000.Idx)
    (h0 : (i 0).val = 200 * t.val + (x 0).val) (h1 : (i 1).val = (x 1).val) :
    (iblk2 V c 0 t : Vec Ideal S200x10000 .f32) x = (V c main_arg1 : S10000x10000.Idx → EReal) i := by
  obtain ⟨e0, e1, -, -, -, -⟩ := idx2 t
  unfold iblk2
  rw [View.read_apply]
  show V c main_arg1 _ = V c main_arg1 _
  refine congrArg (V c main_arg1) (funext fun a => Fin.ext ?_)
  match a with
  | ⟨0, _⟩ => show win2_0.index t (0 : Fin 2) * 200 + 1 * (x 0).val = (i 0).val; rw [e0, h0]; omega
  | ⟨1, _⟩ => show win2_0.index t (1 : Fin 2) * 10000 + 1 * (x 1).val = (i 1).val; rw [e1, h1]; omega

/-- The feature block at any point is the whole feature matrix. -/
theorem iblk2_1_apply (c : Dev nD) (t : Fin cfg2.N) (x : S10000x256.Idx) :
    (iblk2 V c 1 t : Vec Ideal S10000x256 .f32) x = (V c main_v3 : S10000x256.Idx → EReal) x := by
  obtain ⟨-, -, e2, e3, -, -⟩ := idx2 t
  unfold iblk2
  rw [View.read_apply]
  show V c main_v3 _ = V c main_v3 _
  refine congrArg (V c main_v3) (funext fun a => Fin.ext ?_)
  match a with
  | ⟨0, _⟩ => show win2_1.index t (0 : Fin 2) * 10000 + 1 * (x 0).val = (x 0).val; rw [e2]; omega
  | ⟨1, _⟩ => show win2_1.index t (1 : Fin 2) * 256 + 1 * (x 1).val = (x 1).val; rw [e3]; omega

/-- What point t writes back is block t of the full product. -/
theorem flushed2 (c : Dev nD) (t : Fin cfg2.N) :
    (dat2 V c).flushed 2 t = ((cfg2.win 2).blk t).view.read (Elt Ideal)
      (arr (mm (mat (V c main_arg1 : S10000x10000.Idx → EReal)) (mat (V c main_v3 : S10000x256.Idx → EReal)))) := by
  show (cfg2.win 2).cut (grid2.coords t) ((dat2 V c).after 2 t) = _
  rw [after2_2]
  obtain ⟨-, -, -, -, e4, e5⟩ := idx2 t
  funext y
  refine (out2_2_at (iblk2 V c 0 t) (iblk2 V c 1 t) y).trans ?_
  rw [View.read_apply]
  unfold arr mm
  refine Finset.sum_congr rfl fun k _ => ?_
  unfold mat
  refine congrArg₂ (· * ·) (iblk2_0_apply V c t _ _ ?_ rfl) ((iblk2_1_apply V c t _).trans (congrArg (V c main_v3) (funext fun a => Fin.ext ?_)))
  · show win2_2.index t (0 : Fin 2) * 200 + 1 * (y 0).val = 200 * t.val + (y 0).val
    rw [e4]; omega
  · match a with
    | ⟨0, _⟩ => rfl
    | ⟨1, _⟩ => show (y 1).val = win2_2.index t (1 : Fin 2) * 256 + 1 * (y 1).val; rw [e5]; omega

/-- An index of the result is in point t's block iff each coordinate is in the block's range. -/
theorem mem_blk2 (t : Fin cfg2.N) (i : S10000x256.Idx) :
    i ∈ ((cfg2.win 2).blk t).view.set ↔ ∀ a : Fin 2, win2_2.index t a * S200x256.size a ≤ (i a).val ∧ (i a).val < win2_2.index t a * S200x256.size a + S200x256.size a := by
  show i ∈ ((View.whole main_v4).slice (win2_2.rect t)).set ↔ _
  rw [View.set_slice_whole, Rect.mem_set_unit]
  exact Iff.rfl

/-- Every row of the result lies in the slab of the point numbered row / 200. -/
theorem cover2 (i : S10000x256.Idx) : ∃ t : Fin cfg2.N, (cfg2.win 2).flush t = true ∧ i ∈ ((cfg2.win 2).blk t).view.set := by
  have hi0 : (i 0).val < 10000 := (i 0).isLt
  have hi1 : (i 1).val < 256 := (i 1).isLt
  have hN : cfg2.N = 50 := N_2
  refine ⟨⟨(i 0).val / 200, by rw [hN]; omega⟩, flush2_2 _, ?_⟩
  obtain ⟨-, -, -, -, e4, e5⟩ := idx2 ⟨(i 0).val / 200, by rw [hN]; omega⟩
  rw [mem_blk2]
  intro a
  match a with
  | ⟨0, _⟩ => show win2_2.index _ (0 : Fin 2) * 200 ≤ (i 0).val ∧ (i 0).val < win2_2.index _ (0 : Fin 2) * 200 + 200; rw [e4]; show (i 0).val / 200 * 200 ≤ (i 0).val ∧ (i 0).val < (i 0).val / 200 * 200 + 200; omega
  | ⟨1, _⟩ => show win2_2.index _ (1 : Fin 2) * 256 ≤ (i 1).val ∧ (i 1).val < win2_2.index _ (1 : Fin 2) * 256 + 256; rw [e5]; omega

/-- The result array after the sweep: the full product of the two arrays the sweep found. -/
theorem final2 (c : Dev nD) : (dat2 V c).arrAt 2 cfg2.N
    = arr (mm (mat (V c main_arg1 : S10000x10000.Idx → EReal)) (mat (V c main_v3 : S10000x256.Idx → EReal))) :=
  (dat2 V c).arrAt_eq_of_cover 2 _ (fun t _ => flushed2 V c t) (cover2)

end Cert.KernelIdeal.Hand

end
-- ==== Proof.KPay3.lean ====
/-
  What one grid point of the fourth sweep computes, entry by entry, over the extended reals.

  From the point's slab a of the propagation matrix, the whole matrix s₂, the point's own rows of s₂ (u), of s₀ (v) and of
  s₁ (w), the bias row b and the 256 × 64 weight matrix W, the point stores
      Σ_k max (v(p,k) + w(p,k) + u(p,k) + Σ_l a(p,l) · s₂(l,k) + b(0,k), 0) · W(k,q)
  at entry (p, q): the hidden row clipped below at zero, times the weights.
-/
import proofs.«109910_g72645076845145_cont_9to1_m_391_4_alg».proof.Proof.Gen.KernelIdeal.Skeleton
import proofs.«109910_g72645076845145_cont_9to1_m_391_4_alg».proof.Proof.LibMatmul

import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Hand

open Cert.KernelIdeal Cert.KernelIdeal.Gen
open Idealize.ShloMosaic Idealize.ShloMosaic.ValueIdx

/-- A 200 × 10000 slab times the 10000 × 256 matrix, into the zero accumulator, at entry (p, k). -/
theorem slab_times_256 (x0 : FVec Ideal S200x10000 .f32) (x1 : FVec Ideal S10000x256 .f32) (p : Fin 200) (k : Fin 256) :
    matmul dot_S200x10000_S10000x256_S200x256_1_0_0_1_n_n (some .fp32) x0 x1 (constant (F := Ideal) S200x256 .f32 0x00000000#32) (ix2 p k)
      = ∑ l : Fin 10000, x0 (ix2 p l) * x1 (ix2 l k) :=
  Cert.LibMatmul.plain_matmul_zero_apply (some .fp32) x0 x1 p k

/-- A 200 × 256 block times the 256 × 64 weights, into the zero accumulator, at entry (p, q). -/
theorem rows_times_weights (x0 : FVec Ideal S200x256 .f32) (x1 : FVec Ideal S256x64 .f32) (p : Fin 200) (q : Fin 64) :
    matmul dot_S200x256_S256x64_S200x64_1_0_0_1_n_n (some .fp32) x0 x1 (constant (F := Ideal) S200x64 .f32 0x00000000#32) (ix2 p q)
      = ∑ k : Fin 256, x0 (ix2 p k) * x1 (ix2 k q) :=
  Cert.LibMatmul.plain_matmul_zero_apply (some .fp32) x0 x1 p q

/-- The stored value at entry (p, q). -/
theorem k3_pay1_apply (v0 : Vec Ideal S200x10000 .f32) (v1 : Vec Ideal S10000x256 .f32) (v6 v8 v10 : Vec Ideal S200x256 .f32)
    (v15 : Vec Ideal S1x256 .f32) (v21 : Vec Ideal S256x64 .f32) (p : Fin 200) (q : Fin 64) :
    k3_pay1 v0 v1 v6 v8 v10 v15 v21 (ix2 p q)
      = ∑ k : Fin 256, max (v8 (ix2 p k) + v10 (ix2 p k) + v6 (ix2 p k) + (∑ l : Fin 10000, v0 (ix2 p l) * v1 (ix2 l k))
          + v15 (ix2 (0 : Fin 1) k)) 0 * v21 (ix2 k q) := by
  unfold k3_pay1
  simp only [shapeCast_self]
  refine (rows_times_weights _ v21 p q).trans (Finset.sum_congr rfl fun k _ => ?_)
  refine congrArg (· * v21 (ix2 k q)) ?_
  show max (v8 (ix2 p k) + v10 (ix2 p k) + v6 (ix2 p k)
      + matmul dot_S200x10000_S10000x256_S200x256_1_0_0_1_n_n (some .fp32) v0 v1 (constant (F := Ideal) S200x256 .f32 0x00000000#32) (ix2 p k)
      + broadcastTo S200x256 v15 broadcasts_S1x256_S200x256 (ix2 p k)) (Ideal.ofBits .f32 0x00000000#32) = _
  rw [slab_times_256, broadcastTo_1b_ab_apply, Ideal.ofBits_zero_f32]

end Cert.KernelIdeal.Hand

end
-- ==== Proof.K3.lean ====
/-
  Sweep 3 of the idealized kernel: the third product by the propagation matrix, the first layer's sum, the clip at
  zero, and the product with the second weight matrix.

  The grid has 50 points. Point t loads rows 200 t … 200 t + 199 of the propagation matrix A, the whole of s₂, its own
  rows of s₀ and s₁, the bias row and the 256 × 64 weights W; it reads its own rows of s₂ once more through a rectangle at
  row offset 200 t. It stores, as rows 200 t … 200 t + 199 of the result, (max (s₀ + s₁ + s₂ + A s₂ + b, 0)) W. The 50 row
  slabs tile the result.
-/
import proofs.«109910_g72645076845145_cont_9to1_m_391_4_alg».proof.Proof.Gen.KernelIdeal.Frame
import proofs.«109910_g72645076845145_cont_9to1_m_391_4_alg».proof.Proof.Spec
import proofs.«109910_g72645076845145_cont_9to1_m_391_4_alg».proof.Proof.KPay3
import Idealize.ShloMosaic.Lib.Tactic
import Idealize.ShloMosaic.PureOps.Ideal
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen Cert.GraphFilter
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

open Idealize.ShloMosaic.Tactic

theorem hz3 : (![0, 0] : Fin 2 → Nat) = fun _ => 0 := funext fun a => by fin_cases a <;> rfl

/-- The hidden features from the four terms and the bias: max (s₀ + s₁ + s₂ + A s₂ + b, 0). -/
def hid3 (A : Mat 10000 10000) (s0 s1 s2 : Mat 10000 256) (b : Fin 256 → EReal) : Mat 10000 256 :=
  fun r k => max (s0 r k + s1 r k + s2 r k + mm A s2 r k + b k) 0

/-- What the body's one store leaves in the output's staging buffer: the stored value of the body's loads, the second
    load of s₂ through the rectangle at the point's row offset. -/
theorem out3_A_6_eq (c : Dev nD) (i : grid3.Coords) (arg1 : Memref sig .tc .vmem S200x10000 .f32) (harg1 : arg1.IsWhole) (arg2 : Memref sig .tc .vmem S10000x256 .f32) (harg2 : arg2.IsWhole) (arg3 : Memref sig .tc .vmem S200x256 .f32) (harg3 : arg3.IsWhole) (arg4 : Memref sig .tc .vmem S200x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S200x64 .f32) (harg7 : arg7.IsWhole)
    (x0 : Vec Ideal S200x10000 .f32) (x1 : Vec Ideal S10000x256 .f32) (x2 : Vec Ideal S200x256 .f32) (x3 : Vec Ideal S200x256 .f32) (x4 : Vec Ideal S1x256 .f32) (x5 : Vec Ideal S256x64 .f32) :
    out3_A_6 (F := Ideal) c i arg1 harg1 arg2 harg2 arg3 harg3 arg4 harg4 arg5 harg5 arg6 harg6 arg7 harg7 x0 x1 x2 x3 x4 x5
      = k3_pay1 x0 x1 (View.ld x1 (Rect.unit (s := S10000x256) (k3_off1 i) S200x256.size (k3_off1_inb i))) x2 x3 x4 x5 := by
  unfold out3_A_6
  rw [View.read_writes_eq_canon _ _ _ (cover3_A_6 c i arg1 harg1 arg2 harg2 arg3 harg3 arg4 harg4 arg5 harg5 arg6 harg6 arg7 harg7 x0 x1 x2 x3 x4 x5)]
  unfold kernelRun3_A
  dsimp only
  rw [View.canon_unit_zero hz3]
  simp only [View.readAt_eq_ld, harg1.read_unread, harg2.read_unread, harg3.read_unread, harg4.read_unread, harg5.read_unread,
    harg6.read_unread, View.ld_unit_zero (S := S200x10000) hz3, View.ld_unit_zero (S := S10000x256) hz3,
    View.ld_unit_zero (S := S200x256) hz3, View.ld_unit_zero (S := S1x256) hz3, View.ld_unit_zero (S := S256x64) hz3]

/-- Where each window's block sits at point t. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The row offset of the second load of s₂ at point t is 200 t. -/
theorem off3 : ∀ t : Fin cfg3.N, k3_off1 (grid3.coords t) (0 : Fin 2) = 200 * t.val ∧ k3_off1 (grid3.coords t) (1 : Fin 2) = 0 :=
  (by decide +kernel : ∀ t : Fin grid3.N, _)

/-- A row-slab window's block at point t, entry (p, k): the array at (200 t + p, k). -/
theorem iblk3_0_apply (c : Dev nD) (t : Fin cfg3.N) (x : S200x10000.Idx) (i : S10000x10000.Idx)
    (h0 : (i 0).val = 200 * t.val + (x 0).val) (h1 : (i 1).val = (x 1).val) :
    (iblk3 V c 0 t : Vec Ideal S200x10000 .f32) x = (V c main_arg1 : S10000x10000.Idx → EReal) i := by
  obtain ⟨e0, e1, -⟩ := idx3 t
  unfold iblk3
  rw [View.read_apply]
  show V c main_arg1 _ = V c main_arg1 _
  refine congrArg (V c main_arg1) (funext fun a => Fin.ext ?_)
  match a with
  | ⟨0, _⟩ => show win3_0.index t (0 : Fin 2) * 200 + 1 * (x 0).val = (i 0).val; rw [e0, h0]; omega
  | ⟨1, _⟩ => show win3_0.index t (1 : Fin 2) * 10000 + 1 * (x 1).val = (i 1).val; rw [e1, h1]; omega

theorem iblk3_1_apply (c : Dev nD) (t : Fin cfg3.N) (x : S10000x256.Idx) :
    (iblk3 V c 1 t : Vec Ideal S10000x256 .f32) x = (V c main_v4 : S10000x256.Idx → EReal) x := by
  obtain ⟨-, -, e2, e3, -⟩ := idx3 t
  unfold iblk3
  rw [View.read_apply]
  show V c main_v4 _ = V c main_v4 _
  refine congrArg (V c main_v4) (funext fun a => Fin.ext ?_)
  match a with
  | ⟨0, _⟩ => show win3_1.index t (0 : Fin 2) * 10000 + 1 * (x 0).val = (x 0).val; rw [e2]; omega
  | ⟨1, _⟩ => show win3_1.index t (1 : Fin 2) * 256 + 1 * (x 1).val = (x 1).val; rw [e3]; omega

theorem iblk3_2_apply (c : Dev nD) (t : Fin cfg3.N) (x : S200x256.Idx) (i : S10000x256.Idx)
    (h0 : (i 0).val = 200 * t.val + (x 0).val) (h1 : (i 1).val = (x 1).val) :
    (iblk3 V c 2 t : Vec Ideal S200x256 .f32) x = (V c main_v2 : S10000x256.Idx → EReal) i := by
  obtain ⟨-, -, -, -, e4, e5, -⟩ := idx3 t
  unfold iblk3
  rw [View.read_apply]
  show V c main_v2 _ = V c main_v2 _
  refine congrArg (V c main_v2) (funext fun a => Fin.ext ?_)
  match a with
  | ⟨0, _⟩ => show win3_2.index t (0 : Fin 2) * 200 + 1 * (x 0).val = (i 0).val; rw [e4, h0]; omega
  | ⟨1, _⟩ => show win3_2.index t (1 : Fin 2) * 256 + 1 * (x 1).val = (i 1).val; rw [e5, h1]; omega

theorem iblk3_3_apply (c : Dev nD) (t : Fin cfg3.N) (x : S200x256.Idx) (i : S10000x256.Idx)
    (h0 : (i 0).val = 200 * t.val + (x 0).val) (h1 : (i 1).val = (x 1).val) :
    (iblk3 V c 3 t : Vec Ideal S200x256 .f32) x = (V c main_v3 : S10000x256.Idx → EReal) i := by
  obtain ⟨-, -, -, -, -, -, e6, e7, -⟩ := idx3 t
  unfold iblk3
  rw [View.read_apply]
  show V c main_v3 _ = V c main_v3 _
  refine congrArg (V c main_v3) (funext fun a => Fin.ext ?_)
  match a with
  | ⟨0, _⟩ => show win3_3.index t (0 : Fin 2) * 200 + 1 * (x 0).val = (i 0).val; rw [e6, h0]; omega
  | ⟨1, _⟩ => show win3_3.index t (1 : Fin 2) * 256 + 1 * (x 1).val = (i 1).val; rw [e7, h1]; omega

theorem iblk3_4_apply (c : Dev nD) (t : Fin cfg3.N) (x : S1x256.Idx) :
    (iblk3 V c 4 t : Vec Ideal S1x256 .f32) x = (V c main_v0 : S1x256.Idx → EReal) x := by
  obtain ⟨-, -, -, -, -, -, -, -, e8, e9, -⟩ := idx3 t
  unfold iblk3
  rw [View.read_apply]
  show V c main_v0 _ = V c main_v0 _
  refine congrArg (V c main_v0) (funext fun a => Fin.ext ?_)
  match a with
  | ⟨0, _⟩ => show win3_4.index t (0 : Fin 2) * 1 + 1 * (x 0).val = (x 0).val; rw [e8]; omega
  | ⟨1, _⟩ => show win3_4.index t (1 : Fin 2) * 256 + 1 * (x 1).val = (x 1).val; rw [e9]; omega

theorem iblk3_5_apply (c : Dev nD) (t : Fin cfg3.N) (x : S256x64.Idx) :
    (iblk3 V c 5 t : Vec Ideal S256x64 .f32) x = (V c main_arg4 : S256x64.Idx → EReal) x := by
  obtain ⟨-, -, -, -, -, -, -, -, -, -, e10, e11, -⟩ := idx3 t
  unfold iblk3
  rw [View.read_apply]
  show V c main_arg4 _ = V c main_arg4 _
  refine congrArg (V c main_arg4) (funext fun a => Fin.ext ?_)
  match a with
  | ⟨0, _⟩ => show win3_5.index t (0 : Fin 2) * 256 + 1 * (x 0).val = (x 0).val; rw [e10]; omega
  | ⟨1, _⟩ => show win3_5.index t (1 : Fin 2) * 64 + 1 * (x 1).val = (x 1).val; rw [e11]; omega

/-- The second load of s₂ at point t, entry (p, k): s₂ at (200 t + p, k). -/
theorem tile3_apply (c : Dev nD) (t : Fin cfg3.N) (p : Fin 200) (k : Fin 256) (i : S10000x256.Idx)
    (h0 : (i 0).val = 200 * t.val + p.val) (h1 : (i 1).val = k.val) :
    View.ld (iblk3 V c 1 t : Vec Ideal S10000x256 .f32)
        (Rect.unit (s := S10000x256) (k3_off1 (grid3.coords t)) S200x256.size (k3_off1_inb (grid3.coords t))) (ix2 p k)
      = (V c main_v4 : S10000x256.Idx → EReal) i := by
  obtain ⟨o0, o1⟩ := off3 t
  show (iblk3 V c 1 t : Vec Ideal S10000x256 .f32) _ = _
  refine (iblk3_1_apply V c t _).trans (congrArg (V c main_v4) (funext fun a => Fin.ext ?_))
  match a with
  | ⟨0, _⟩ => show k3_off1 (grid3.coords t) (0 : Fin 2) + 1 * p.val = (i 0).val; rw [o0, h0]; omega
  | ⟨1, _⟩ => show k3_off1 (grid3.coords t) (1 : Fin 2) + 1 * k.val = (i 1).val; rw [o1, h1]; omega

/-- What point t writes back is block t of (hidden) W. -/
theorem flushed3 (c : Dev nD) (t : Fin cfg3.N) :
    (dat3 V c).flushed 6 t = ((cfg3.win 6).blk t).view.read (Elt Ideal)
      (arr (mm (hid3 (mat (V c main_arg1 : S10000x10000.Idx → EReal)) (mat (V c main_v2 : S10000x256.Idx → EReal))
          (mat (V c main_v3 : S10000x256.Idx → EReal)) (mat (V c main_v4 : S10000x256.Idx → EReal))
          (fun k => (V c main_v0 : S1x256.Idx → EReal) (ix2 (0 : Fin 1) k))) (mat (V c main_arg4 : S256x64.Idx → EReal)))) := by
  show (cfg3.win 6).cut (grid3.coords t) ((dat3 V c).after 6 t) = _
  rw [after3_6]
  unfold outsAt3
  rw [out3_A_6_eq]
  obtain ⟨-, -, -, -, -, -, -, -, -, -, -, -, e12, e13⟩ := idx3 t
  funext y
  conv_lhs => rw [eq_ix2 y]
  refine (k3_pay1_apply _ _ _ _ _ _ _ (y 0) (y 1)).trans ?_
  rw [View.read_apply]
  unfold arr mm
  have hr : ((((cfg3.win 6).blk t).view.emb y) 0).val = 200 * t.val + (y 0).val := by
    show win3_6.index t (0 : Fin 2) * 200 + 1 * (y 0).val = _
    rw [e12]; omega
  have hq : ((((cfg3.win 6).blk t).view.emb y) 1).val = (y 1).val := by
    show win3_6.index t (1 : Fin 2) * 64 + 1 * (y 1).val = _
    rw [e13]; omega
  refine Finset.sum_congr rfl fun k _ => ?_
  refine congrArg₂ (· * ·) ?_ ?_
  · unfold hid3 mm mat
    refine congrArg (fun z => max z (0 : EReal)) ?_
    refine congrArg₂ (· + ·) (congrArg₂ (· + ·) (congrArg₂ (· + ·) (congrArg₂ (· + ·) ?_ ?_) ?_) ?_) ?_
    · exact iblk3_2_apply V c t _ _ hr rfl
    · exact iblk3_3_apply V c t _ _ hr rfl
    · exact tile3_apply V c t _ _ _ hr rfl
    · refine Finset.sum_congr rfl fun l _ => ?_
      exact congrArg₂ (· * ·) (iblk3_0_apply V c t _ _ hr rfl) (iblk3_1_apply V c t _)
    · exact iblk3_4_apply V c t _
  · unfold mat
    refine (iblk3_5_apply V c t _).trans (congrArg (V c main_arg4) (funext fun a => Fin.ext ?_))
    match a with
    | ⟨0, _⟩ => rfl
    | ⟨1, _⟩ => exact hq.symm

theorem mem_blk3 (t : Fin cfg3.N) (i : S10000x64.Idx) :
    i ∈ ((cfg3.win 6).blk t).view.set ↔ ∀ a : Fin 2, win3_6.index t a * S200x64.size a ≤ (i a).val ∧ (i a).val < win3_6.index t a * S200x64.size a + S200x64.size a := by
  show i ∈ ((View.whole main_v5).slice (win3_6.rect t)).set ↔ _
  rw [View.set_slice_whole, Rect.mem_set_unit]
  exact Iff.rfl

theorem cover3 (i : S10000x64.Idx) : ∃ t : Fin cfg3.N, (cfg3.win 6).flush t = true ∧ i ∈ ((cfg3.win 6).blk t).view.set := by
  have hi0 : (i 0).val < 10000 := (i 0).isLt
  have hi1 : (i 1).val < 64 := (i 1).isLt
  have hN : cfg3.N = 50 := N_3
  refine ⟨⟨(i 0).val / 200, by rw [hN]; omega⟩, flush3_6 _, ?_⟩
  obtain ⟨-, -, -, -, -, -, -, -, -, -, -, -, e12, e13⟩ := idx3 ⟨(i 0).val / 200, by rw [hN]; omega⟩
  rw [mem_blk3]
  intro a
  match a with
  | ⟨0, _⟩ => show win3_6.index _ (0 : Fin 2) * 200 ≤ (i 0).val ∧ (i 0).val < win3_6.index _ (0 : Fin 2) * 200 + 200; rw [e12]; show (i 0).val / 200 * 200 ≤ (i 0).val ∧ (i 0).val < (i 0).val / 200 * 200 + 200; omega
  | ⟨1, _⟩ => show win3_6.index _ (1 : Fin 2) * 64 ≤ (i 1).val ∧ (i 1).val < win3_6.index _ (1 : Fin 2) * 64 + 64; rw [e13]; omega

/-- The result array after the sweep. -/
theorem final3 (c : Dev nD) : (dat3 V c).arrAt 6 cfg3.N
    = arr (mm (hid3 (mat (V c main_arg1 : S10000x10000.Idx → EReal)) (mat (V c main_v2 : S10000x256.Idx → EReal))
          (mat (V c main_v3 : S10000x256.Idx → EReal)) (mat (V c main_v4 : S10000x256.Idx → EReal))
          (fun k => (V c main_v0 : S1x256.Idx → EReal) (ix2 (0 : Fin 1) k))) (mat (V c main_arg4 : S256x64.Idx → EReal))) :=
  (dat3 V c).arrAt_eq_of_cover 6 _ (fun t _ => flushed3 V c t) (cover3)

end Cert.KernelIdeal.Hand

end
-- ==== Proof.KHop4.lean ====
/-
  Sweep 4 of the idealized kernel: one product by the propagation matrix.

  The grid has 50 points. Point t loads rows 200 t … 200 t + 199 of the 10000 × 10000 matrix and the whole
  10000 × 64 feature matrix, multiplies them into a zero accumulator and writes the 200 × 64 product back as rows
  200 t … 200 t + 199 of the result. The 50 row slabs tile the result, so it ends as the full matrix product, entry
  (r, j) being Σ_k A(r, k) · S(k, j).
-/
import proofs.«109910_g72645076845145_cont_9to1_m_391_4_alg».proof.Proof.Gen.KernelIdeal.Frame
import proofs.«109910_g72645076845145_cont_9to1_m_391_4_alg».proof.Proof.Spec
import proofs.«109910_g72645076845145_cont_9to1_m_391_4_alg».proof.Proof.LibMatmul
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen Cert.GraphFilter
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- What a point stores, entry by entry: the product of its two loaded blocks. -/
theorem out4_2_apply (x0 : Vec Ideal S200x10000 .f32) (x1 : Vec Ideal S10000x64 .f32) (p : Fin 200) (q : Fin 64) :
    out4_2 x0 x1 (ix2 p q) = ∑ k : Fin 10000, x0 (ix2 p k) * x1 (ix2 k q) := by
  unfold out4_2
  rw [View.canon_unit_zero hz4]
  simp only [View.ld_unit_zero (S := S200x10000) hz4, View.ld_unit_zero (S := S10000x64) hz4]
  unfold k4_pay1
  rw [shapeCast_self]
  exact Cert.LibMatmul.plain_matmul_zero_apply (some .fp32) x0 x1 p q

/-- The same at any index of the block. -/
theorem out4_2_at (x0 : Vec Ideal S200x10000 .f32) (x1 : Vec Ideal S10000x64 .f32) (y : S200x64.Idx) :
    out4_2 x0 x1 y = ∑ k : Fin 10000, x0 (ix2 (n0 := 200) (y 0) k) * x1 (ix2 k (n1 := 64) (y 1)) := by
  conv_lhs => rw [eq_ix2 y]
  exact out4_2_apply x0 x1 (y 0) (y 1)

/-- Where each window's block sits at point t: the matrix slab and the result slab at block row t, the features whole. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The matrix slab at point t, entry (p, k): the matrix at (200 t + p, k). -/
theorem iblk4_0_apply (c : Dev nD) (t : Fin cfg4.N) (x : S200x10000.Idx) (i : S10000x10000.Idx)
    (h0 : (i 0).val = 200 * t.val + (x 0).val) (h1 : (i 1).val = (x 1).val) :
    (iblk4 V c 0 t : Vec Ideal S200x10000 .f32) x = (V c main_arg1 : S10000x10000.Idx → EReal) i := by
  obtain ⟨e0, e1, -, -, -, -⟩ := idx4 t
  unfold iblk4
  rw [View.read_apply]
  show V c main_arg1 _ = V c main_arg1 _
  refine congrArg (V c main_arg1) (funext fun a => Fin.ext ?_)
  match a with
  | ⟨0, _⟩ => show win4_0.index t (0 : Fin 2) * 200 + 1 * (x 0).val = (i 0).val; rw [e0, h0]; omega
  | ⟨1, _⟩ => show win4_0.index t (1 : Fin 2) * 10000 + 1 * (x 1).val = (i 1).val; rw [e1, h1]; omega

/-- The feature block at any point is the whole feature matrix. -/
theorem iblk4_1_apply (c : Dev nD) (t : Fin cfg4.N) (x : S10000x64.Idx) :
    (iblk4 V c 1 t : Vec Ideal S10000x64 .f32) x = (V c main_v5 : S10000x64.Idx → EReal) x := by
  obtain ⟨-, -, e2, e3, -, -⟩ := idx4 t
  unfold iblk4
  rw [View.read_apply]
  show V c main_v5 _ = V c main_v5 _
  refine congrArg (V c main_v5) (funext fun a => Fin.ext ?_)
  match a with
  | ⟨0, _⟩ => show win4_1.index t (0 : Fin 2) * 10000 + 1 * (x 0).val = (x 0).val; rw [e2]; omega
  | ⟨1, _⟩ => show win4_1.index t (1 : Fin 2) * 64 + 1 * (x 1).val = (x 1).val; rw [e3]; omega

/-- What point t writes back is block t of the full product. -/
theorem flushed4 (c : Dev nD) (t : Fin cfg4.N) :
    (dat4 V c).flushed 2 t = ((cfg4.win 2).blk t).view.read (Elt Ideal)
      (arr (mm (mat (V c main_arg1 : S10000x10000.Idx → EReal)) (mat (V c main_v5 : S10000x64.Idx → EReal)))) := by
  show (cfg4.win 2).cut (grid4.coords t) ((dat4 V c).after 2 t) = _
  rw [after4_2]
  obtain ⟨-, -, -, -, e4, e5⟩ := idx4 t
  funext y
  refine (out4_2_at (iblk4 V c 0 t) (iblk4 V c 1 t) y).trans ?_
  rw [View.read_apply]
  unfold arr mm
  refine Finset.sum_congr rfl fun k _ => ?_
  unfold mat
  refine congrArg₂ (· * ·) (iblk4_0_apply V c t _ _ ?_ rfl) ((iblk4_1_apply V c t _).trans (congrArg (V c main_v5) (funext fun a => Fin.ext ?_)))
  · show win4_2.index t (0 : Fin 2) * 200 + 1 * (y 0).val = 200 * t.val + (y 0).val
    rw [e4]; omega
  · match a with
    | ⟨0, _⟩ => rfl
    | ⟨1, _⟩ => show (y 1).val = win4_2.index t (1 : Fin 2) * 64 + 1 * (y 1).val; rw [e5]; omega

/-- An index of the result is in point t's block iff each coordinate is in the block's range. -/
theorem mem_blk4 (t : Fin cfg4.N) (i : S10000x64.Idx) :
    i ∈ ((cfg4.win 2).blk t).view.set ↔ ∀ a : Fin 2, win4_2.index t a * S200x64.size a ≤ (i a).val ∧ (i a).val < win4_2.index t a * S200x64.size a + S200x64.size a := by
  show i ∈ ((View.whole main_v6).slice (win4_2.rect t)).set ↔ _
  rw [View.set_slice_whole, Rect.mem_set_unit]
  exact Iff.rfl

/-- Every row of the result lies in the slab of the point numbered row / 200. -/
theorem cover4 (i : S10000x64.Idx) : ∃ t : Fin cfg4.N, (cfg4.win 2).flush t = true ∧ i ∈ ((cfg4.win 2).blk t).view.set := by
  have hi0 : (i 0).val < 10000 := (i 0).isLt
  have hi1 : (i 1).val < 64 := (i 1).isLt
  have hN : cfg4.N = 50 := N_4
  refine ⟨⟨(i 0).val / 200, by rw [hN]; omega⟩, flush4_2 _, ?_⟩
  obtain ⟨-, -, -, -, e4, e5⟩ := idx4 ⟨(i 0).val / 200, by rw [hN]; omega⟩
  rw [mem_blk4]
  intro a
  match a with
  | ⟨0, _⟩ => show win4_2.index _ (0 : Fin 2) * 200 ≤ (i 0).val ∧ (i 0).val < win4_2.index _ (0 : Fin 2) * 200 + 200; rw [e4]; show (i 0).val / 200 * 200 ≤ (i 0).val ∧ (i 0).val < (i 0).val / 200 * 200 + 200; omega
  | ⟨1, _⟩ => show win4_2.index _ (1 : Fin 2) * 64 ≤ (i 1).val ∧ (i 1).val < win4_2.index _ (1 : Fin 2) * 64 + 64; rw [e5]; omega

/-- The result array after the sweep: the full product of the two arrays the sweep found. -/
theorem final4 (c : Dev nD) : (dat4 V c).arrAt 2 cfg4.N
    = arr (mm (mat (V c main_arg1 : S10000x10000.Idx → EReal)) (mat (V c main_v5 : S10000x64.Idx → EReal))) :=
  (dat4 V c).arrAt_eq_of_cover 2 _ (fun t _ => flushed4 V c t) (cover4)

end Cert.KernelIdeal.Hand

end
-- ==== Proof.KHop5.lean ====
/-
  Sweep 5 of the idealized kernel: one product by the propagation matrix.

  The grid has 50 points. Point t loads rows 200 t … 200 t + 199 of the 10000 × 10000 matrix and the whole
  10000 × 64 feature matrix, multiplies them into a zero accumulator and writes the 200 × 64 product back as rows
  200 t … 200 t + 199 of the result. The 50 row slabs tile the result, so it ends as the full matrix product, entry
  (r, j) being Σ_k A(r, k) · S(k, j).
-/
import proofs.«109910_g72645076845145_cont_9to1_m_391_4_alg».proof.Proof.Gen.KernelIdeal.Frame
import proofs.«109910_g72645076845145_cont_9to1_m_391_4_alg».proof.Proof.Spec
import proofs.«109910_g72645076845145_cont_9to1_m_391_4_alg».proof.Proof.LibMatmul
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen Cert.GraphFilter
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- What a point stores, entry by entry: the product of its two loaded blocks. -/
theorem out5_2_apply (x0 : Vec Ideal S200x10000 .f32) (x1 : Vec Ideal S10000x64 .f32) (p : Fin 200) (q : Fin 64) :
    out5_2 x0 x1 (ix2 p q) = ∑ k : Fin 10000, x0 (ix2 p k) * x1 (ix2 k q) := by
  unfold out5_2
  rw [View.canon_unit_zero hz5]
  simp only [View.ld_unit_zero (S := S200x10000) hz5, View.ld_unit_zero (S := S10000x64) hz5]
  unfold k5_pay1
  rw [shapeCast_self]
  exact Cert.LibMatmul.plain_matmul_zero_apply (some .fp32) x0 x1 p q

/-- The same at any index of the block. -/
theorem out5_2_at (x0 : Vec Ideal S200x10000 .f32) (x1 : Vec Ideal S10000x64 .f32) (y : S200x64.Idx) :
    out5_2 x0 x1 y = ∑ k : Fin 10000, x0 (ix2 (n0 := 200) (y 0) k) * x1 (ix2 k (n1 := 64) (y 1)) := by
  conv_lhs => rw [eq_ix2 y]
  exact out5_2_apply x0 x1 (y 0) (y 1)

/-- Where each window's block sits at point t: the matrix slab and the result slab at block row t, the features whole. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The matrix slab at point t, entry (p, k): the matrix at (200 t + p, k). -/
theorem iblk5_0_apply (c : Dev nD) (t : Fin cfg5.N) (x : S200x10000.Idx) (i : S10000x10000.Idx)
    (h0 : (i 0).val = 200 * t.val + (x 0).val) (h1 : (i 1).val = (x 1).val) :
    (iblk5 V c 0 t : Vec Ideal S200x10000 .f32) x = (V c main_arg1 : S10000x10000.Idx → EReal) i := by
  obtain ⟨e0, e1, -, -, -, -⟩ := idx5 t
  unfold iblk5
  rw [View.read_apply]
  show V c main_arg1 _ = V c main_arg1 _
  refine congrArg (V c main_arg1) (funext fun a => Fin.ext ?_)
  match a with
  | ⟨0, _⟩ => show win5_0.index t (0 : Fin 2) * 200 + 1 * (x 0).val = (i 0).val; rw [e0, h0]; omega
  | ⟨1, _⟩ => show win5_0.index t (1 : Fin 2) * 10000 + 1 * (x 1).val = (i 1).val; rw [e1, h1]; omega

/-- The feature block at any point is the whole feature matrix. -/
theorem iblk5_1_apply (c : Dev nD) (t : Fin cfg5.N) (x : S10000x64.Idx) :
    (iblk5 V c 1 t : Vec Ideal S10000x64 .f32) x = (V c main_v6 : S10000x64.Idx → EReal) x := by
  obtain ⟨-, -, e2, e3, -, -⟩ := idx5 t
  unfold iblk5
  rw [View.read_apply]
  show V c main_v6 _ = V c main_v6 _
  refine congrArg (V c main_v6) (funext fun a => Fin.ext ?_)
  match a with
  | ⟨0, _⟩ => show win5_1.index t (0 : Fin 2) * 10000 + 1 * (x 0).val = (x 0).val; rw [e2]; omega
  | ⟨1, _⟩ => show win5_1.index t (1 : Fin 2) * 64 + 1 * (x 1).val = (x 1).val; rw [e3]; omega

/-- What point t writes back is block t of the full product. -/
theorem flushed5 (c : Dev nD) (t : Fin cfg5.N) :
    (dat5 V c).flushed 2 t = ((cfg5.win 2).blk t).view.read (Elt Ideal)
      (arr (mm (mat (V c main_arg1 : S10000x10000.Idx → EReal)) (mat (V c main_v6 : S10000x64.Idx → EReal)))) := by
  show (cfg5.win 2).cut (grid5.coords t) ((dat5 V c).after 2 t) = _
  rw [after5_2]
  obtain ⟨-, -, -, -, e4, e5⟩ := idx5 t
  funext y
  refine (out5_2_at (iblk5 V c 0 t) (iblk5 V c 1 t) y).trans ?_
  rw [View.read_apply]
  unfold arr mm
  refine Finset.sum_congr rfl fun k _ => ?_
  unfold mat
  refine congrArg₂ (· * ·) (iblk5_0_apply V c t _ _ ?_ rfl) ((iblk5_1_apply V c t _).trans (congrArg (V c main_v6) (funext fun a => Fin.ext ?_)))
  · show win5_2.index t (0 : Fin 2) * 200 + 1 * (y 0).val = 200 * t.val + (y 0).val
    rw [e4]; omega
  · match a with
    | ⟨0, _⟩ => rfl
    | ⟨1, _⟩ => show (y 1).val = win5_2.index t (1 : Fin 2) * 64 + 1 * (y 1).val; rw [e5]; omega

/-- An index of the result is in point t's block iff each coordinate is in the block's range. -/
theorem mem_blk5 (t : Fin cfg5.N) (i : S10000x64.Idx) :
    i ∈ ((cfg5.win 2).blk t).view.set ↔ ∀ a : Fin 2, win5_2.index t a * S200x64.size a ≤ (i a).val ∧ (i a).val < win5_2.index t a * S200x64.size a + S200x64.size a := by
  show i ∈ ((View.whole main_v7).slice (win5_2.rect t)).set ↔ _
  rw [View.set_slice_whole, Rect.mem_set_unit]
  exact Iff.rfl

/-- Every row of the result lies in the slab of the point numbered row / 200. -/
theorem cover5 (i : S10000x64.Idx) : ∃ t : Fin cfg5.N, (cfg5.win 2).flush t = true ∧ i ∈ ((cfg5.win 2).blk t).view.set := by
  have hi0 : (i 0).val < 10000 := (i 0).isLt
  have hi1 : (i 1).val < 64 := (i 1).isLt
  have hN : cfg5.N = 50 := N_5
  refine ⟨⟨(i 0).val / 200, by rw [hN]; omega⟩, flush5_2 _, ?_⟩
  obtain ⟨-, -, -, -, e4, e5⟩ := idx5 ⟨(i 0).val / 200, by rw [hN]; omega⟩
  rw [mem_blk5]
  intro a
  match a with
  | ⟨0, _⟩ => show win5_2.index _ (0 : Fin 2) * 200 ≤ (i 0).val ∧ (i 0).val < win5_2.index _ (0 : Fin 2) * 200 + 200; rw [e4]; show (i 0).val / 200 * 200 ≤ (i 0).val ∧ (i 0).val < (i 0).val / 200 * 200 + 200; omega
  | ⟨1, _⟩ => show win5_2.index _ (1 : Fin 2) * 64 ≤ (i 1).val ∧ (i 1).val < win5_2.index _ (1 : Fin 2) * 64 + 64; rw [e5]; omega

/-- The result array after the sweep: the full product of the two arrays the sweep found. -/
theorem final5 (c : Dev nD) : (dat5 V c).arrAt 2 cfg5.N
    = arr (mm (mat (V c main_arg1 : S10000x10000.Idx → EReal)) (mat (V c main_v6 : S10000x64.Idx → EReal))) :=
  (dat5 V c).arrAt_eq_of_cover 2 _ (fun t _ => flushed5 V c t) (cover5)

end Cert.KernelIdeal.Hand

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«109910_g72645076845145_cont_9to1_m_391_4_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.KPay6.lean ====
/-
  What one grid point of the last sweep computes, entry by entry, over the extended reals.

  The point forms the 200 × 64 block of scores z = v + w + u + a · t₂ + b (its rows of t₀, t₁ and t₂, its slab a of the
  propagation matrix times the whole t₂, and the bias row), takes each row's maximum M, and stores
      z(p,q) − (M_p + log Σ_k exp (z(p,k) − M_p)).
  The row maximum is the fold of max from −∞ over the row; the row sum is the sum over the row from zero.
-/
import proofs.«109910_g72645076845145_cont_9to1_m_391_4_alg».proof.Proof.Gen.KernelIdeal.Skeleton
import proofs.«109910_g72645076845145_cont_9to1_m_391_4_alg».proof.Proof.LibMatmul
import proofs.«109910_g72645076845145_cont_9to1_m_391_4_alg».proof.Proof.Spec
import proofs.«109910_g72645076845145_cont_9to1_m_391_4_alg».proof.Proof.LibColumns
import proofs.«109910_g72645076845145_cont_9to1_m_391_4_alg».proof.Proof.LibRowSums
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Hand

open Cert.KernelIdeal Cert.KernelIdeal.Gen
open Idealize.ShloMosaic Idealize.ShloMosaic.ValueIdx

open Cert.GraphFilter

/-- A 200 × 10000 slab times the 10000 × 64 matrix, into the zero accumulator, at entry (p, k). -/
theorem slab_times_64 (x0 : FVec Ideal S200x10000 .f32) (x1 : FVec Ideal S10000x64 .f32) (p : Fin 200) (k : Fin 64) :
    matmul dot_S200x10000_S10000x64_S200x64_1_0_0_1_n_n (some .fp32) x0 x1 (constant (F := Ideal) S200x64 .f32 0x00000000#32) (ix2 p k)
      = ∑ l : Fin 10000, x0 (ix2 p l) * x1 (ix2 l k) :=
  Cert.LibMatmul.plain_matmul_zero_apply (some .fp32) x0 x1 p k

/-- The −∞ literal is the bottom of the extended reals. -/
theorem ofBits_neg_inf : Ideal.ofBits .f32 0xFF800000#32 = (⊥ : EReal) := by simp [Ideal.ofBits, Ideal.ieee]

/-- The source index a reduction along axis 1 inserts over row p at coordinate k is (p, k). -/
theorem lift_row64 (h : S200x64.Reduces [1] S200) (p : Fin 200) (k : Fin 64) : h.lift (ix1 p) k = ix2 p k := by
  funext c
  apply Fin.ext
  match c with
  | ⟨0, _⟩ => rfl
  | ⟨1, _⟩ => rfl

/-- A row's maximum kept as a column: the lane reduction by max along axis 1 from −∞, cast from [200] to [200, 1], reads
    at (p, u) the fold of max from −∞ over the row's 64 entries. -/
theorem laneMax_apply (Z : FVec Ideal S200x64 .f32) (h : S200x64.Reduces [1] S200) (hφ : FKind.Formats .f32)
    (hacc : (0xFF800000#32 : BitVec 32) = FKind.maximumf.neutral .f32 hφ) (hc : S200.ShapeCasts S200x1) (p : Fin 200) (u : Fin 1) :
    shapeCast S200x1 (multiReduction .maximumf [1] S200 Z 0xFF800000#32 h hφ hacc) hc (ix2 p u) = rowMax fun k : Fin 64 => Z (ix2 p k) := by
  rw [Cert.LibColumns.shapeCast_a_a1_apply]
  refine (Ideal.multiReduction_maximumf_single Z 0xFF800000#32 h hφ hacc (ix1 p)).trans ?_
  unfold rowMax
  show (Finset.univ : Finset (Fin 64)).fold max (Ideal.ofBits .f32 0xFF800000#32) (Z ∘ h.lift (ix1 p)) = _
  rw [ofBits_neg_inf]
  exact congrArg (fun f => Finset.fold max (⊥ : EReal) f (Finset.univ : Finset (Fin 64))) (funext fun k => congrArg Z (lift_row64 h p k))

/-- The normalisation of a block of scores, at entry (p, q). -/
theorem norm_block_apply (Z : FVec Ideal S200x64 .f32) (p : Fin 200) (q : Fin 64) :
    subf Z (broadcastTo S200x64
        (addf (shapeCast S200x1 (multiReduction .maximumf [1] S200 Z 0xFF800000#32 reduces_S200x64_S200 (.inl rfl) rfl) shapeCasts_S200_S200x1)
          (log (shapeCast S200x1 (multiReduction .add [1] S200
              (exp (subf Z (broadcastTo S200x64 (shapeCast S200x1 (multiReduction .maximumf [1] S200 Z 0xFF800000#32 reduces_S200x64_S200 (.inl rfl) rfl) shapeCasts_S200_S200x1) broadcasts_S200x1_S200x64)))
              0x00000000#32 reduces_S200x64_S200 (.inl rfl) rfl) shapeCasts_S200_S200x1)))
        broadcasts_S200x1_S200x64) (ix2 p q)
      = Z (ix2 p q) - (rowMax (fun k : Fin 64 => Z (ix2 p k)) + Ideal.log (expSum fun k : Fin 64 => Z (ix2 p k))) := by
  show Z (ix2 p q) - broadcastTo S200x64 _ broadcasts_S200x1_S200x64 (ix2 p q) = _
  rw [Cert.LibColumns.broadcastTo_a1_ab_apply]
  refine congrArg (fun t => Z (ix2 p q) - t) (congrArg₂ (· + ·) ?_ (congrArg Ideal.log ?_))
  · exact laneMax_apply Z reduces_S200x64_S200 (.inl rfl) rfl shapeCasts_S200_S200x1 p 0
  · refine (Cert.LibRowSums.laneSum_apply _ 0x00000000#32 reduces_S200x64_S200 (.inl rfl) rfl shapeCasts_S200_S200x1 p 0).trans ?_
    unfold expSum
    refine Finset.sum_congr rfl fun k _ => ?_
    show Ideal.exp (Z (ix2 p k) - broadcastTo S200x64 _ broadcasts_S200x1_S200x64 (ix2 p k)) = _
    rw [Cert.LibColumns.broadcastTo_a1_ab_apply]
    exact congrArg (fun t => Ideal.exp (Z (ix2 p k) - t)) (laneMax_apply Z reduces_S200x64_S200 (.inl rfl) rfl shapeCasts_S200_S200x1 p 0)

/-- The scores' row p as the point forms it. -/
def scoreRow (v0 : FVec Ideal S200x10000 .f32) (v1 : FVec Ideal S10000x64 .f32) (v6 v8 v10 : FVec Ideal S200x64 .f32)
    (v15 : FVec Ideal S1x64 .f32) (p : Fin 200) : Fin 64 → EReal :=
  fun j => v8 (ix2 p j) + v10 (ix2 p j) + v6 (ix2 p j) + (∑ l : Fin 10000, v0 (ix2 p l) * v1 (ix2 l j)) + v15 (ix2 (0 : Fin 1) j)

/-- The block of scores the point forms, as one vector. -/
def scoreBlock (v0 : FVec Ideal S200x10000 .f32) (v1 : FVec Ideal S10000x64 .f32) (v6 v8 v10 : FVec Ideal S200x64 .f32)
    (v15 : FVec Ideal S1x64 .f32) : FVec Ideal S200x64 .f32 :=
  addf (addf (addf (addf v8 v10) v6) (matmul dot_S200x10000_S10000x64_S200x64_1_0_0_1_n_n (some .fp32) v0 v1 (constant (F := Ideal) S200x64 .f32 0x00000000#32)))
    (broadcastTo S200x64 v15 broadcasts_S1x64_S200x64)

theorem scoreBlock_apply (v0 : FVec Ideal S200x10000 .f32) (v1 : FVec Ideal S10000x64 .f32) (v6 v8 v10 : FVec Ideal S200x64 .f32)
    (v15 : FVec Ideal S1x64 .f32) (p : Fin 200) (j : Fin 64) :
    scoreBlock v0 v1 v6 v8 v10 v15 (ix2 p j) = scoreRow v0 v1 v6 v8 v10 v15 p j := by
  show v8 (ix2 p j) + v10 (ix2 p j) + v6 (ix2 p j)
      + matmul dot_S200x10000_S10000x64_S200x64_1_0_0_1_n_n (some .fp32) v0 v1 (constant (F := Ideal) S200x64 .f32 0x00000000#32) (ix2 p j)
      + broadcastTo S200x64 v15 broadcasts_S1x64_S200x64 (ix2 p j) = _
  rw [slab_times_64, broadcastTo_1b_ab_apply]
  rfl

/-- The stored value at entry (p, q). -/
theorem k6_pay1_apply (v0 : Vec Ideal S200x10000 .f32) (v1 : Vec Ideal S10000x64 .f32) (v6 v8 v10 : Vec Ideal S200x64 .f32)
    (v15 : Vec Ideal S1x64 .f32) (p : Fin 200) (q : Fin 64) :
    k6_pay1 v0 v1 v6 v8 v10 v15 (ix2 p q)
      = scoreRow v0 v1 v6 v8 v10 v15 p q - (rowMax (scoreRow v0 v1 v6 v8 v10 v15 p) + Ideal.log (expSum (scoreRow v0 v1 v6 v8 v10 v15 p))) := by
  have e : k6_pay1 v0 v1 v6 v8 v10 v15 (ix2 p q)
      = scoreBlock v0 v1 v6 v8 v10 v15 (ix2 p q) - (rowMax (fun k : Fin 64 => scoreBlock v0 v1 v6 v8 v10 v15 (ix2 p k))
          + Ideal.log (expSum fun k : Fin 64 => scoreBlock v0 v1 v6 v8 v10 v15 (ix2 p k))) := by
    unfold k6_pay1
    simp only [shapeCast_self]
    exact norm_block_apply (scoreBlock v0 v1 v6 v8 v10 v15) p q
  rw [e, scoreBlock_apply]
  have er : (fun k : Fin 64 => scoreBlock v0 v1 v6 v8 v10 v15 (ix2 p k)) = scoreRow v0 v1 v6 v8 v10 v15 p :=
    funext fun k => scoreBlock_apply v0 v1 v6 v8 v10 v15 p k
  rw [er]

end Cert.KernelIdeal.Hand

end
-- ==== Proof.K6.lean ====
/-
  Sweep 6 of the idealized kernel: the last product by the propagation matrix, the second layer's sum, and the
  normalisation of each row by the logarithm of its sum of exponentials.

  The grid has 50 points. Point t loads rows 200 t … 200 t + 199 of the propagation matrix A, the whole of t₂, its own rows
  of t₀ and t₁ and the bias row; it reads its own rows of t₂ once more through a rectangle at row offset 200 t. With
  z = t₀ + t₁ + t₂ + A t₂ + b on its rows it stores z − (M + log Σ exp (z − M)), M the row's maximum, as rows
  200 t … 200 t + 199 of the result. The 50 row slabs tile the result.
-/
import proofs.«109910_g72645076845145_cont_9to1_m_391_4_alg».proof.Proof.Gen.KernelIdeal.Frame
import proofs.«109910_g72645076845145_cont_9to1_m_391_4_alg».proof.Proof.Spec
import proofs.«109910_g72645076845145_cont_9to1_m_391_4_alg».proof.Proof.KPay6
import Idealize.ShloMosaic.Lib.Tactic
import Idealize.ShloMosaic.PureOps.Ideal
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen Cert.GraphFilter
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

open Idealize.ShloMosaic.Tactic

theorem hz6 : (![0, 0] : Fin 2 → Nat) = fun _ => 0 := funext fun a => by fin_cases a <;> rfl

/-- The scores from the four terms and the bias: t₀ + t₁ + t₂ + A t₂ + b. -/
def score6 (A : Mat 10000 10000) (t0 t1 t2 : Mat 10000 64) (b : Fin 64 → EReal) : Mat 10000 64 :=
  fun r j => t0 r j + t1 r j + t2 r j + mm A t2 r j + b j

/-- What the body's one store leaves in the output's staging buffer: the stored value of the body's loads, the second
    load of t₂ through the rectangle at the point's row offset. -/
theorem out6_A_5_eq (c : Dev nD) (i : grid6.Coords) (arg1 : Memref sig .tc .vmem S200x10000 .f32) (harg1 : arg1.IsWhole) (arg2 : Memref sig .tc .vmem S10000x64 .f32) (harg2 : arg2.IsWhole) (arg3 : Memref sig .tc .vmem S200x64 .f32) (harg3 : arg3.IsWhole) (arg4 : Memref sig .tc .vmem S200x64 .f32) (harg4 : arg4.IsWhole) (arg5 : Memref sig .tc .vmem S1x64 .f32) (harg5 : arg5.IsWhole) (arg6 : Memref sig .tc .vmem S200x64 .f32) (harg6 : arg6.IsWhole)
    (x0 : Vec Ideal S200x10000 .f32) (x1 : Vec Ideal S10000x64 .f32) (x2 : Vec Ideal S200x64 .f32) (x3 : Vec Ideal S200x64 .f32) (x4 : Vec Ideal S1x64 .f32) :
    out6_A_5 (F := Ideal) c i arg1 harg1 arg2 harg2 arg3 harg3 arg4 harg4 arg5 harg5 arg6 harg6 x0 x1 x2 x3 x4
      = k6_pay1 x0 x1 (View.ld x1 (Rect.unit (s := S10000x64) (k6_off1 i) S200x64.size (k6_off1_inb i))) x2 x3 x4 := by
  unfold out6_A_5
  rw [View.read_writes_eq_canon _ _ _ (cover6_A_5 c i arg1 harg1 arg2 harg2 arg3 harg3 arg4 harg4 arg5 harg5 arg6 harg6 x0 x1 x2 x3 x4)]
  unfold kernelRun6_A
  dsimp only
  rw [View.canon_unit_zero hz6]
  simp only [View.readAt_eq_ld, harg1.read_unread, harg2.read_unread, harg3.read_unread, harg4.read_unread, harg5.read_unread,
    View.ld_unit_zero (S := S200x10000) hz6, View.ld_unit_zero (S := S10000x64) hz6,
    View.ld_unit_zero (S := S200x64) hz6, View.ld_unit_zero (S := S1x64) hz6]

/-- Where each window's block sits at point t. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The row offset of the second load of t₂ at point t is 200 t. -/
theorem off6 : ∀ t : Fin cfg6.N, k6_off1 (grid6.coords t) (0 : Fin 2) = 200 * t.val ∧ k6_off1 (grid6.coords t) (1 : Fin 2) = 0 :=
  (by decide +kernel : ∀ t : Fin grid6.N, _)

/-- A row-slab window's block at point t, entry (p, k): the array at (200 t + p, k); a whole-array window's block is the array. -/
theorem iblk6_0_apply (c : Dev nD) (t : Fin cfg6.N) (x : S200x10000.Idx) (i : S10000x10000.Idx)
    (h0 : (i 0).val = 200 * t.val + (x 0).val) (h1 : (i 1).val = (x 1).val) :
    (iblk6 V c 0 t : Vec Ideal S200x10000 .f32) x = (V c main_arg1 : S10000x10000.Idx → EReal) i := by
  obtain ⟨e0, e1, -⟩ := idx6 t
  unfold iblk6
  rw [View.read_apply]
  show V c main_arg1 _ = V c main_arg1 _
  refine congrArg (V c main_arg1) (funext fun a => Fin.ext ?_)
  match a with
  | ⟨0, _⟩ => show win6_0.index t (0 : Fin 2) * 200 + 1 * (x 0).val = (i 0).val; rw [e0, h0]; omega
  | ⟨1, _⟩ => show win6_0.index t (1 : Fin 2) * 10000 + 1 * (x 1).val = (i 1).val; rw [e1, h1]; omega

theorem iblk6_1_apply (c : Dev nD) (t : Fin cfg6.N) (x : S10000x64.Idx) :
    (iblk6 V c 1 t : Vec Ideal S10000x64 .f32) x = (V c main_v7 : S10000x64.Idx → EReal) x := by
  obtain ⟨-, -, e2, e3, -⟩ := idx6 t
  unfold iblk6
  rw [View.read_apply]
  show V c main_v7 _ = V c main_v7 _
  refine congrArg (V c main_v7) (funext fun a => Fin.ext ?_)
  match a with
  | ⟨0, _⟩ => show win6_1.index t (0 : Fin 2) * 10000 + 1 * (x 0).val = (x 0).val; rw [e2]; omega
  | ⟨1, _⟩ => show win6_1.index t (1 : Fin 2) * 64 + 1 * (x 1).val = (x 1).val; rw [e3]; omega

theorem iblk6_2_apply (c : Dev nD) (t : Fin cfg6.N) (x : S200x64.Idx) (i : S10000x64.Idx)
    (h0 : (i 0).val = 200 * t.val + (x 0).val) (h1 : (i 1).val = (x 1).val) :
    (iblk6 V c 2 t : Vec Ideal S200x64 .f32) x = (V c main_v5 : S10000x64.Idx → EReal) i := by
  obtain ⟨-, -, -, -, e4, e5, -⟩ := idx6 t
  unfold iblk6
  rw [View.read_apply]
  show V c main_v5 _ = V c main_v5 _
  refine congrArg (V c main_v5) (funext fun a => Fin.ext ?_)
  match a with
  | ⟨0, _⟩ => show win6_2.index t (0 : Fin 2) * 200 + 1 * (x 0).val = (i 0).val; rw [e4, h0]; omega
  | ⟨1, _⟩ => show win6_2.index t (1 : Fin 2) * 64 + 1 * (x 1).val = (i 1).val; rw [e5, h1]; omega

theorem iblk6_3_apply (c : Dev nD) (t : Fin cfg6.N) (x : S200x64.Idx) (i : S10000x64.Idx)
    (h0 : (i 0).val = 200 * t.val + (x 0).val) (h1 : (i 1).val = (x 1).val) :
    (iblk6 V c 3 t : Vec Ideal S200x64 .f32) x = (V c main_v6 : S10000x64.Idx → EReal) i := by
  obtain ⟨-, -, -, -, -, -, e6, e7, -⟩ := idx6 t
  unfold iblk6
  rw [View.read_apply]
  show V c main_v6 _ = V c main_v6 _
  refine congrArg (V c main_v6) (funext fun a => Fin.ext ?_)
  match a with
  | ⟨0, _⟩ => show win6_3.index t (0 : Fin 2) * 200 + 1 * (x 0).val = (i 0).val; rw [e6, h0]; omega
  | ⟨1, _⟩ => show win6_3.index t (1 : Fin 2) * 64 + 1 * (x 1).val = (i 1).val; rw [e7, h1]; omega

theorem iblk6_4_apply (c : Dev nD) (t : Fin cfg6.N) (x : S1x64.Idx) :
    (iblk6 V c 4 t : Vec Ideal S1x64 .f32) x = (V c main_v1 : S1x64.Idx → EReal) x := by
  obtain ⟨-, -, -, -, -, -, -, -, e8, e9, -⟩ := idx6 t
  unfold iblk6
  rw [View.read_apply]
  show V c main_v1 _ = V c main_v1 _
  refine congrArg (V c main_v1) (funext fun a => Fin.ext ?_)
  match a with
  | ⟨0, _⟩ => show win6_4.index t (0 : Fin 2) * 1 + 1 * (x 0).val = (x 0).val; rw [e8]; omega
  | ⟨1, _⟩ => show win6_4.index t (1 : Fin 2) * 64 + 1 * (x 1).val = (x 1).val; rw [e9]; omega

/-- The second load of t₂ at point t, entry (p, k): t₂ at (200 t + p, k). -/
theorem tile6_apply (c : Dev nD) (t : Fin cfg6.N) (p : Fin 200) (k : Fin 64) (i : S10000x64.Idx)
    (h0 : (i 0).val = 200 * t.val + p.val) (h1 : (i 1).val = k.val) :
    View.ld (iblk6 V c 1 t : Vec Ideal S10000x64 .f32)
        (Rect.unit (s := S10000x64) (k6_off1 (grid6.coords t)) S200x64.size (k6_off1_inb (grid6.coords t))) (ix2 p k)
      = (V c main_v7 : S10000x64.Idx → EReal) i := by
  obtain ⟨o0, o1⟩ := off6 t
  show (iblk6 V c 1 t : Vec Ideal S10000x64 .f32) _ = _
  refine (iblk6_1_apply V c t _).trans (congrArg (V c main_v7) (funext fun a => Fin.ext ?_))
  match a with
  | ⟨0, _⟩ => show k6_off1 (grid6.coords t) (0 : Fin 2) + 1 * p.val = (i 0).val; rw [o0, h0]; omega
  | ⟨1, _⟩ => show k6_off1 (grid6.coords t) (1 : Fin 2) + 1 * k.val = (i 1).val; rw [o1, h1]; omega

/-- The scores' row the point forms at its row p is row 200 t + p of the scores. -/
theorem scoreRow_eq (c : Dev nD) (t : Fin cfg6.N) (p : Fin 200) (r : Fin 10000) (hr : r.val = 200 * t.val + p.val) :
    scoreRow (iblk6 V c 0 t) (iblk6 V c 1 t)
        (View.ld (iblk6 V c 1 t : Vec Ideal S10000x64 .f32) (Rect.unit (s := S10000x64) (k6_off1 (grid6.coords t)) S200x64.size (k6_off1_inb (grid6.coords t))))
        (iblk6 V c 2 t) (iblk6 V c 3 t) (iblk6 V c 4 t) p
      = score6 (mat (V c main_arg1 : S10000x10000.Idx → EReal)) (mat (V c main_v5 : S10000x64.Idx → EReal))
          (mat (V c main_v6 : S10000x64.Idx → EReal)) (mat (V c main_v7 : S10000x64.Idx → EReal))
          (fun k => (V c main_v1 : S1x64.Idx → EReal) (ix2 (0 : Fin 1) k)) r := by
  funext j
  unfold scoreRow score6 mm mat
  refine congrArg₂ (· + ·) (congrArg₂ (· + ·) (congrArg₂ (· + ·) (congrArg₂ (· + ·) ?_ ?_) ?_) ?_) ?_
  · exact iblk6_2_apply V c t _ _ hr rfl
  · exact iblk6_3_apply V c t _ _ hr rfl
  · exact tile6_apply V c t _ _ _ hr rfl
  · refine Finset.sum_congr rfl fun l _ => ?_
    exact congrArg₂ (· * ·) (iblk6_0_apply V c t _ _ hr rfl) (iblk6_1_apply V c t _)
  · exact iblk6_4_apply V c t _

/-- What point t writes back is block t of the normalised scores. -/
theorem flushed6 (c : Dev nD) (t : Fin cfg6.N) :
    (dat6 V c).flushed 5 t = ((cfg6.win 5).blk t).view.read (Elt Ideal)
      (arr (normA (score6 (mat (V c main_arg1 : S10000x10000.Idx → EReal)) (mat (V c main_v5 : S10000x64.Idx → EReal))
          (mat (V c main_v6 : S10000x64.Idx → EReal)) (mat (V c main_v7 : S10000x64.Idx → EReal))
          (fun k => (V c main_v1 : S1x64.Idx → EReal) (ix2 (0 : Fin 1) k))))) := by
  show (cfg6.win 5).cut (grid6.coords t) ((dat6 V c).after 5 t) = _
  rw [after6_5]
  unfold outsAt6
  rw [out6_A_5_eq]
  obtain ⟨-, -, -, -, -, -, -, -, -, -, e10, e11⟩ := idx6 t
  funext y
  conv_lhs => rw [eq_ix2 y]
  refine (k6_pay1_apply _ _ _ _ _ _ (y 0) (y 1)).trans ?_
  rw [View.read_apply]
  unfold arr normA
  have hr : ((((cfg6.win 5).blk t).view.emb y) 0).val = 200 * t.val + (y 0).val := by
    show win6_5.index t (0 : Fin 2) * 200 + 1 * (y 0).val = _
    rw [e10]; omega
  have hq : ((((cfg6.win 5).blk t).view.emb y) 1).val = (y 1).val := by
    show win6_5.index t (1 : Fin 2) * 64 + 1 * (y 1).val = _
    rw [e11]; omega
  have hrow := scoreRow_eq V c t (y 0) ⟨((((cfg6.win 5).blk t).view.emb y) 0).val, idx2_lt0 _⟩ hr
  have hj : (y 1 : Fin 64) = ⟨((((cfg6.win 5).blk t).view.emb y) 1).val, idx2_lt1 _⟩ := Fin.ext hq.symm
  exact congrArg₂ (fun (z : Fin 64 → EReal) (j : Fin 64) => z j - (rowMax z + Ideal.log (expSum z))) hrow hj

theorem mem_blk6 (t : Fin cfg6.N) (i : S10000x64.Idx) :
    i ∈ ((cfg6.win 5).blk t).view.set ↔ ∀ a : Fin 2, win6_5.index t a * S200x64.size a ≤ (i a).val ∧ (i a).val < win6_5.index t a * S200x64.size a + S200x64.size a := by
  show i ∈ ((View.whole main_v8).slice (win6_5.rect t)).set ↔ _
  rw [View.set_slice_whole, Rect.mem_set_unit]
  exact Iff.rfl

theorem cover6 (i : S10000x64.Idx) : ∃ t : Fin cfg6.N, (cfg6.win 5).flush t = true ∧ i ∈ ((cfg6.win 5).blk t).view.set := by
  have hi0 : (i 0).val < 10000 := (i 0).isLt
  have hi1 : (i 1).val < 64 := (i 1).isLt
  have hN : cfg6.N = 50 := N_6
  refine ⟨⟨(i 0).val / 200, by rw [hN]; omega⟩, flush6_5 _, ?_⟩
  obtain ⟨-, -, -, -, -, -, -, -, -, -, e10, e11⟩ := idx6 ⟨(i 0).val / 200, by rw [hN]; omega⟩
  rw [mem_blk6]
  intro a
  match a with
  | ⟨0, _⟩ => show win6_5.index _ (0 : Fin 2) * 200 ≤ (i 0).val ∧ (i 0).val < win6_5.index _ (0 : Fin 2) * 200 + 200; rw [e10]; show (i 0).val / 200 * 200 ≤ (i 0).val ∧ (i 0).val < (i 0).val / 200 * 200 + 200; omega
  | ⟨1, _⟩ => show win6_5.index _ (1 : Fin 2) * 64 ≤ (i 1).val ∧ (i 1).val < win6_5.index _ (1 : Fin 2) * 64 + 64; rw [e11]; omega

/-- The result array after the sweep. -/
theorem final6 (c : Dev nD) : (dat6 V c).arrAt 5 cfg6.N
    = arr (normA (score6 (mat (V c main_arg1 : S10000x10000.Idx → EReal)) (mat (V c main_v5 : S10000x64.Idx → EReal))
          (mat (V c main_v6 : S10000x64.Idx → EReal)) (mat (V c main_v7 : S10000x64.Idx → EReal))
          (fun k => (V c main_v1 : S1x64.Idx → EReal) (ix2 (0 : Fin 1) k)))) :=
  (dat6 V c).arrAt_eq_of_cover 5 _ (fun t _ => flushed6 V c t) (cover6)

end Cert.KernelIdeal.Hand

end
-- ==== Proof.KValue.lean ====
/-
  The idealized kernel's result as one function of its six arguments.

  The seven sweeps are chained through the buffers: each sweep's result array, once written, is carried unchanged to the
  sweeps that read it (a sweep leaves its input arrays as it found them and does not touch the buffers it has no window on),
  and the arguments stay as launched throughout. Writing X, A, W₀, b₀, W₁, b₁ for the arguments,
      s₀ = X W₀, s₁ = A s₀, s₂ = A s₁, h = max (s₀ + s₁ + s₂ + A s₂ + b₀, 0),
      t₀ = h W₁, t₁ = A t₀, t₂ = A t₁, z = t₀ + t₁ + t₂ + A t₂ + b₁,
  and the result is z with each row normalised: z_j − (M + log Σ_k exp (z_k − M)), M the row's maximum. The two bias rows
  reach their sweeps as [1, f] reshapes of the bias vectors.
-/
import proofs.«109910_g72645076845145_cont_9to1_m_391_4_alg».proof.Proof.KRun
import proofs.«109910_g72645076845145_cont_9to1_m_391_4_alg».proof.Proof.KLin0
import proofs.«109910_g72645076845145_cont_9to1_m_391_4_alg».proof.Proof.KHop1
import proofs.«109910_g72645076845145_cont_9to1_m_391_4_alg».proof.Proof.KHop2
import proofs.«109910_g72645076845145_cont_9to1_m_391_4_alg».proof.Proof.K3
import proofs.«109910_g72645076845145_cont_9to1_m_391_4_alg».proof.Proof.KHop4
import proofs.«109910_g72645076845145_cont_9to1_m_391_4_alg».proof.Proof.KHop5
import proofs.«109910_g72645076845145_cont_9to1_m_391_4_alg».proof.Proof.K6
import Idealize.ShloMosaic.Lib.ValueLayout
import Idealize.ShloMosaic.Lib.StableHlo.Run

set_option maxRecDepth 16384

open scoped BigOperators

noncomputable section

namespace Cert.KernelIdeal.Hand

open Cert.KernelIdeal Cert.KernelIdeal.Gen Cert.GraphFilter
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The stages, as matrices of the arguments -/

def kA : Mat 10000 10000 := mat (m ((c : Thread nD τ).loc main_arg1) : S10000x10000.Idx → EReal)
def kS0 : Mat 10000 256 := mm (mat (m ((c : Thread nD τ).loc main_arg0) : S10000x256.Idx → EReal)) (mat (m ((c : Thread nD τ).loc main_arg2) : S256x256.Idx → EReal))
def kS1 : Mat 10000 256 := mm (kA m c) (kS0 m c)
def kS2 : Mat 10000 256 := mm (kA m c) (kS1 m c)
def kH : Mat 10000 256 := hid3 (kA m c) (kS0 m c) (kS1 m c) (kS2 m c) (vec (m ((c : Thread nD τ).loc main_arg3) : S256.Idx → EReal))
def kT0 : Mat 10000 64 := mm (kH m c) (mat (m ((c : Thread nD τ).loc main_arg4) : S256x64.Idx → EReal))
def kT1 : Mat 10000 64 := mm (kA m c) (kT0 m c)
def kT2 : Mat 10000 64 := mm (kA m c) (kT1 m c)

/-- The scores the last sweep normalises are the specification's class scores. -/
theorem score_eq_logits : score6 (kA m c) (kT0 m c) (kT1 m c) (kT2 m c) (vec (m ((c : Thread nD τ).loc main_arg5) : S64.Idx → EReal))
    = logits (mat (m ((c : Thread nD τ).loc main_arg0) : S10000x256.Idx → EReal)) (mat (m ((c : Thread nD τ).loc main_arg1) : S10000x10000.Idx → EReal))
        (mat (m ((c : Thread nD τ).loc main_arg2) : S256x256.Idx → EReal)) (vec (m ((c : Thread nD τ).loc main_arg3) : S256.Idx → EReal))
        (mat (m ((c : Thread nD τ).loc main_arg4) : S256x64.Idx → EReal)) (vec (m ((c : Thread nD τ).loc main_arg5) : S64.Idx → EReal)) := rfl

/-! ## The arguments and the bias rows at the sweeps that read them -/

theorem W1_arg0 : W1 m ρ c (Proc.devRef .tc main_arg0) = m ((c : Thread nD τ).loc main_arg0) := (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W1_arg1 : W1 m ρ c (Proc.devRef .tc main_arg1) = m ((c : Thread nD τ).loc main_arg1) := (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W1_arg2 : W1 m ρ c (Proc.devRef .tc main_arg2) = m ((c : Thread nD τ).loc main_arg2) := (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W1_arg4 : W1 m ρ c (Proc.devRef .tc main_arg4) = m ((c : Thread nD τ).loc main_arg4) := (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem V1_arg0 : V1 m ρ c main_arg0 = m ((c : Thread nD τ).loc main_arg0) := W1_arg0 m ρ c
theorem V1_arg2 : V1 m ρ c main_arg2 = m ((c : Thread nD τ).loc main_arg2) := W1_arg2 m ρ c
theorem V2_arg1 : V2 m ρ c main_arg1 = m ((c : Thread nD τ).loc main_arg1) := (W2_of_ne m ρ c main_arg1 (by decide)).trans (W1_arg1 m ρ c)
theorem V3_arg1 : V3 m ρ c main_arg1 = m ((c : Thread nD τ).loc main_arg1) := ((W3_arr m ρ c 0).trans (((dat1 (V2 m ρ) c).arrAt_in 0 rfl _).trans (A_eq1 (V2 m ρ) c 0))).trans (V2_arg1 m ρ c)
theorem V4_arg1 : V4 m ρ c main_arg1 = m ((c : Thread nD τ).loc main_arg1) := ((W4_arr m ρ c 0).trans (((dat2 (V3 m ρ) c).arrAt_in 0 rfl _).trans (A_eq2 (V3 m ρ) c 0))).trans (V3_arg1 m ρ c)
theorem V5_arg1 : V5 m ρ c main_arg1 = m ((c : Thread nD τ).loc main_arg1) := ((W5_arr m ρ c 0).trans (((dat3 (V4 m ρ) c).arrAt_in 0 rfl _).trans (A_eq3 (V4 m ρ) c 0))).trans (V4_arg1 m ρ c)
theorem V6_arg1 : V6 m ρ c main_arg1 = m ((c : Thread nD τ).loc main_arg1) := ((W6_arr m ρ c 0).trans (((dat4 (V5 m ρ) c).arrAt_in 0 rfl _).trans (A_eq4 (V5 m ρ) c 0))).trans (V5_arg1 m ρ c)
theorem V7_arg1 : V7 m ρ c main_arg1 = m ((c : Thread nD τ).loc main_arg1) := ((W7_arr m ρ c 0).trans (((dat5 (V6 m ρ) c).arrAt_in 0 rfl _).trans (A_eq5 (V6 m ρ) c 0))).trans (V6_arg1 m ρ c)
theorem V4_arg4 : V4 m ρ c main_arg4 = m ((c : Thread nD τ).loc main_arg4) :=
  (W4_of_ne m ρ c main_arg4 (by decide)).trans ((W3_of_ne m ρ c main_arg4 (by decide)).trans ((W2_of_ne m ρ c main_arg4 (by decide)).trans (W1_arg4 m ρ c)))

/-- The first bias row as sweep 3 finds it: the [1, 256] reshape of the bias vector. -/
theorem W1_v0 : (W1 m ρ c (Proc.devRef .tc main_v0) : S1x256.Idx → EReal)
    = shapeCast S1x256 (m ((c : Thread nD τ).loc main_arg3) : S256.Idx → EReal) shapeCasts_S256_S1x256 := by
  show StableHlo.after hostOps0 _ _ = _
  after_results
  rfl
theorem V4_v0 : V4 m ρ c main_v0 = shapeCast S1x256 (m ((c : Thread nD τ).loc main_arg3) : S256.Idx → EReal) shapeCasts_S256_S1x256 :=
  (W4_of_ne m ρ c main_v0 (by decide)).trans ((W3_of_ne m ρ c main_v0 (by decide)).trans ((W2_of_ne m ρ c main_v0 (by decide)).trans (W1_v0 m ρ c)))
theorem V4_v0_row : (fun k : Fin 256 => (V4 m ρ c main_v0 : S1x256.Idx → EReal) (ix2 (0 : Fin 1) k)) = vec (m ((c : Thread nD τ).loc main_arg3) : S256.Idx → EReal) := by
  funext k
  rw [V4_v0]
  exact shapeCast_a_1a_apply _ _ _ _

/-- The second bias row as sweep 6 finds it. -/
theorem W1_v1 : (W1 m ρ c (Proc.devRef .tc main_v1) : S1x64.Idx → EReal)
    = shapeCast S1x64 (m ((c : Thread nD τ).loc main_arg5) : S64.Idx → EReal) shapeCasts_S64_S1x64 := by
  show StableHlo.after hostOps0 _ _ = _
  after_results
  rfl
theorem V7_v1 : V7 m ρ c main_v1 = shapeCast S1x64 (m ((c : Thread nD τ).loc main_arg5) : S64.Idx → EReal) shapeCasts_S64_S1x64 :=
  (W7_of_ne m ρ c main_v1 (by decide)).trans ((W6_of_ne m ρ c main_v1 (by decide)).trans ((W5_of_ne m ρ c main_v1 (by decide)).trans
    ((W4_of_ne m ρ c main_v1 (by decide)).trans ((W3_of_ne m ρ c main_v1 (by decide)).trans ((W2_of_ne m ρ c main_v1 (by decide)).trans (W1_v1 m ρ c))))))
theorem V7_v1_row : (fun k : Fin 64 => (V7 m ρ c main_v1 : S1x64.Idx → EReal) (ix2 (0 : Fin 1) k)) = vec (m ((c : Thread nD τ).loc main_arg5) : S64.Idx → EReal) := by
  funext k
  rw [V7_v1]
  exact shapeCast_a_1a_apply _ _ _ _

/-! ## Each sweep's result, and its way to the sweeps that read it -/

theorem V2_v2 : V2 m ρ c main_v2 = arr (kS0 m c) :=
  (W2_arr m ρ c 2).trans ((final0 (V1 m ρ) c).trans (by rw [V1_arg0, V1_arg2]; rfl))
theorem V3_v2 : V3 m ρ c main_v2 = arr (kS0 m c) := ((W3_arr m ρ c 1).trans (((dat1 (V2 m ρ) c).arrAt_in 1 rfl _).trans (A_eq1 (V2 m ρ) c 1))).trans (V2_v2 m ρ c)
theorem V4_v2 : V4 m ρ c main_v2 = arr (kS0 m c) := (W4_of_ne m ρ c main_v2 (by decide)).trans (V3_v2 m ρ c)

theorem V3_v3 : V3 m ρ c main_v3 = arr (kS1 m c) :=
  (W3_arr m ρ c 2).trans ((final1 (V2 m ρ) c).trans (by rw [V2_arg1, V2_v2, mat_arr]; rfl))
theorem V4_v3 : V4 m ρ c main_v3 = arr (kS1 m c) := ((W4_arr m ρ c 1).trans (((dat2 (V3 m ρ) c).arrAt_in 1 rfl _).trans (A_eq2 (V3 m ρ) c 1))).trans (V3_v3 m ρ c)

theorem V4_v4 : V4 m ρ c main_v4 = arr (kS2 m c) :=
  (W4_arr m ρ c 2).trans ((final2 (V3 m ρ) c).trans (by rw [V3_arg1, V3_v3, mat_arr]; rfl))

theorem V5_v5 : V5 m ρ c main_v5 = arr (kT0 m c) :=
  (W5_arr m ρ c 6).trans ((final3 (V4 m ρ) c).trans (by rw [V4_arg1, V4_v2, V4_v3, V4_v4, V4_v0_row, V4_arg4, mat_arr, mat_arr, mat_arr]; rfl))
theorem V6_v5 : V6 m ρ c main_v5 = arr (kT0 m c) := ((W6_arr m ρ c 1).trans (((dat4 (V5 m ρ) c).arrAt_in 1 rfl _).trans (A_eq4 (V5 m ρ) c 1))).trans (V5_v5 m ρ c)
theorem V7_v5 : V7 m ρ c main_v5 = arr (kT0 m c) := (W7_of_ne m ρ c main_v5 (by decide)).trans (V6_v5 m ρ c)

theorem V6_v6 : V6 m ρ c main_v6 = arr (kT1 m c) :=
  (W6_arr m ρ c 2).trans ((final4 (V5 m ρ) c).trans (by rw [V5_arg1, V5_v5, mat_arr]; rfl))
theorem V7_v6 : V7 m ρ c main_v6 = arr (kT1 m c) := ((W7_arr m ρ c 1).trans (((dat5 (V6 m ρ) c).arrAt_in 1 rfl _).trans (A_eq5 (V6 m ρ) c 1))).trans (V6_v6 m ρ c)

theorem V7_v7 : V7 m ρ c main_v7 = arr (kT2 m c) :=
  (W7_arr m ρ c 2).trans ((final5 (V6 m ρ) c).trans (by rw [V6_arg1, V6_v6, mat_arr]; rfl))

/-- The result array at the last boundary: the normalised class scores of the arguments. -/
theorem W8_v8 : W8 m ρ c (Proc.devRef .tc main_v8)
    = arr (normA (logits (mat (m ((c : Thread nD τ).loc main_arg0) : S10000x256.Idx → EReal)) (mat (m ((c : Thread nD τ).loc main_arg1) : S10000x10000.Idx → EReal))
        (mat (m ((c : Thread nD τ).loc main_arg2) : S256x256.Idx → EReal)) (vec (m ((c : Thread nD τ).loc main_arg3) : S256.Idx → EReal))
        (mat (m ((c : Thread nD τ).loc main_arg4) : S256x64.Idx → EReal)) (vec (m ((c : Thread nD τ).loc main_arg5) : S64.Idx → EReal)))) :=
  (W8_arr m ρ c 5).trans ((final6 (V7 m ρ) c).trans (by
    rw [V7_arg1, V7_v5, V7_v6, V7_v7, V7_v1_row, mat_arr, mat_arr, mat_arr]
    exact congrArg (fun Z => arr (normA Z)) (score_eq_logits m c)))

/-- The idealized kernel's run: the result array at the normalised class scores of the arguments, the arguments as launched. -/
theorem kernel_run : θ_run (defs (F := Ideal)) (onTc (τ := τ) (main (F := Ideal))) ⟨m, fun _ => 0, ρ⟩ (fun r => ∀ c : Dev nD,
      r.2.mem ((c.tc : Thread nD τ).loc main_v8)
        = arr (normA (logits (mat (m ((c.tc : Thread nD τ).loc main_arg0))) (mat (m ((c.tc : Thread nD τ).loc main_arg1)))
            (mat (m ((c.tc : Thread nD τ).loc main_arg2))) (vec (m ((c.tc : Thread nD τ).loc main_arg3)))
            (mat (m ((c.tc : Thread nD τ).loc main_arg4))) (vec (m ((c.tc : Thread nD τ).loc main_arg5)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W8_v8 m ρ c), (h c).2⟩) (run_named m ρ)

end Cert.KernelIdeal.Hand

end
-- ==== Proof.Claims.lean ====
/-
  The five claims, assembled.

  The three frame claims are the programs' runs with the argument arrays read back: the kernel's two from the region by
  region frame of its launch, the reference's from its run read back as a list of host operations, the result dropped.
  The idealization rewrote no operation, so what it preserves is nothing to prove. For the algebraic claim both programs
  are run from memories that agree on the six arguments. The kernel ends with its result at the specification's class
  scores normalised in the form z_j − (M + log Σ exp (z − M)), the reference with its result at the same scores
  normalised in the form (z_j − M) − log Σ exp (z − M). The precondition makes every argument entry a real number, so
  the class scores are real, and on a matrix of reals the two forms are one; that common array is the witness.
-/
import proofs.«109910_g72645076845145_cont_9to1_m_391_4_alg».proof.Defs
import proofs.«109910_g72645076845145_cont_9to1_m_391_4_alg».proof.Proof.Gen.Kernel.Frame
import proofs.«109910_g72645076845145_cont_9to1_m_391_4_alg».proof.Proof.Gen.KernelIdeal.Frame
import proofs.«109910_g72645076845145_cont_9to1_m_391_4_alg».proof.Proof.Gen.ReferenceIdeal
import proofs.«109910_g72645076845145_cont_9to1_m_391_4_alg».proof.Proof.Gen.Pre_finite_inputs
import proofs.«109910_g72645076845145_cont_9to1_m_391_4_alg».proof.Proof.RefFinal
import proofs.«109910_g72645076845145_cont_9to1_m_391_4_alg».proof.Proof.SpecLaws
import proofs.«109910_g72645076845145_cont_9to1_m_391_4_alg».proof.Proof.Finite
import proofs.«109910_g72645076845145_cont_9to1_m_391_4_alg».proof.Proof.KValue

noncomputable section

namespace Cert.Proof.Claims

open Idealize.ShloMosaic Idealize.ShloMosaic.ValueIdx Idealize.SL.Sem Cert.GraphFilter

/-- The kernel as printed runs and leaves its arguments as launched. -/
theorem frame_p : Cert.frame_Kernel := fun m ρ _ => Cert.Kernel.Gen.frame m ρ

/-- The idealized kernel runs and leaves its arguments as launched. -/
theorem frame_pi : Cert.frame_KernelIdeal := fun m ρ _ => Cert.KernelIdeal.Gen.frame m ρ

/-- The reference runs and leaves its arguments as launched: its run read back, the result's conjunct dropped. -/
theorem frame_ri : Cert.frame_ReferenceIdeal := fun m ρ _ =>
  (θ_run (Cert.ReferenceIdeal.defs (F := Ideal)) _ _).mono (fun _ h c => (h c).2)
    (Cert.ReferenceIdeal.ValueP.run (F := Ideal) m ρ)

/-- The idealization rewrote no operation. -/
theorem preserves : Cert.preserves_Kernel_KernelIdeal := trivial

/-- The class scores of a launch memory that satisfies the precondition are real numbers. -/
theorem scores_real (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 10000) (j : Fin 64) :
    ∃ x : ℝ, logits (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1)))
        (mat (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3)))
        (mat (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))) r j = (x : EReal) := by
  obtain ⟨h0, h1, h2, h3, h4, h5⟩ := Cert.GraphFilter.Fin0.real_of_pre m hpre c
  exact logits_real _ _ _ _ _ _ (fun a b => h0 (ix2 a b)) (fun a b => h1 (ix2 a b)) (fun a b => h2 (ix2 a b))
    (fun a => h3 (ix1 a)) (fun a b => h4 (ix2 a b)) (fun a => h5 (ix1 a)) r j

/-- THE ALGEBRAIC CLAIM: from memories agreeing on the arguments both programs run and end with equal results, the
    specification's normalised class scores, the arguments unchanged. -/
theorem algebraic : Cert.algebraic_KernelIdeal_ReferenceIdeal := by
  intro m ρ m' ρ' hpre hagree
  refine ⟨fun c => arr (normA (logits (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1)))
        (mat (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3)))
        (mat (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))))), Cert.KernelIdeal.Hand.kernel_run m ρ, ?_⟩
  refine (θ_run (Cert.ReferenceIdeal.defs (F := Ideal)) _ _).mono (fun _ h c => ⟨(h c).1.trans ?_, (h c).2⟩)
    (Cert.GraphFilter.Ref.ref_run m' ρ')
  obtain ⟨e0, e1, e2, e3, e4, e5⟩ := hagree c
  rw [e0, e1, e2, e3, e4, e5]
  exact congrArg arr (normA_eq_normB _ (scores_real m hpre c)).symm

end Cert.Proof.Claims

end
-- ==== Proof.lean ====
/-
  A two-layer polynomial graph filter, computed two ways, is one function of its inputs.

  Inputs: node features X (10000 × 256), a dense propagation matrix A (10000 × 10000), weights W₀ (256 × 256) and
  W₁ (256 × 64), biases b₀ and b₁. One layer maps a feature matrix s to s + A s + A² s + A³ s + b. The first layer is
  applied to X W₀ and clipped below at zero, the second to (hidden) W₁, and each row of the 10000 × 64 result is
  normalised by the logarithm of its sum of exponentials.

  The kernel does this in seven grid sweeps of 50 row slabs each — X W₀; two products by A; a third product by A
  together with the first layer's sum, the clip and the product with W₁; two more products by A; and a last product by
  A together with the second layer's sum and the normalisation — and the reference as one chain of whole-array
  operations. Over the extended reals every matrix product is the same finite sum on both sides and the four terms of
  each layer are added in the same order, so the class scores z agree term for term. The two sides differ only in how
  a row is normalised: z_j − (M + log Σ_k exp (z_k − M)) against (z_j − M) − log Σ_k exp (z_k − M), with M the row's
  maximum. These agree when the row is real, which the precondition (every input entry finite) gives, sums and products
  of reals being real; at an infinite score they need not.

  The modules: Spec (the mathematics), SpecLaws (realness of the scores; the two normalisations agree on reals), Finite
  (the precondition read entry by entry), KLin0 / KHop1 / KHop2 / K3 / KHop4 / KHop5 / K6 (each sweep's result array as a
  function of the arrays it found), KRun and KValue (the sweeps chained into the kernel's run), RefRun / RefRead / RefSide /
  RefFinal (the reference's run and its stages read at an index), Claims (the five claims).
-/
import proofs.«109910_g72645076845145_cont_9to1_m_391_4_alg».proof.Defs
import proofs.«109910_g72645076845145_cont_9to1_m_391_4_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, Cert.Proof.Claims.preserves, Cert.Proof.Claims.algebraic⟩

end Cert.Proof

end
